-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x4x128 : Shape := ⟨3, ![10000, 4, 128]⟩
abbrev S2x160000 : Shape := ⟨2, ![2, 160000]⟩
abbrev S128x128 : Shape := ⟨2, ![128, 128]⟩
abbrev S128 : Shape := ⟨1, ![128]⟩
abbrev S384x384 : Shape := ⟨2, ![384, 384]⟩
abbrev S_ : Shape := ⟨0, ![]⟩

class Facts : Prop where
  bcast_S_S10000x4x128 : S_.BroadcastsInDim S10000x4x128 (![] : Fin 0 → Fin S10000x4x128.rank)
  reducesTo_S10000x4x128_S_d0_1_2 : S10000x4x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x384 : S_.BroadcastsInDim S384x384 (![] : Fin 0 → Fin S384x384.rank)
  reducesTo_S384x384_S_d0_1 : S384x384.ReducesTo [0, 1] S_

variable [Facts]

def fn_part1 {F : FTy → Type} [FloatOps F] (main_arg5 : FVec F S384x384 .f32) (main_arg6 : FVec F S384x384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x384 .f32 := Host.absf main_arg5
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S384x384 .f32 := Host.absf main_arg6
  let main_cst_8 : FVec F S_ .f32 := constant S_ .f32 0x7F800000#32
  let main_v25 : FVec F S384x384 .f32 := broadcastInDim S384x384 ![] bcast_S_S384x384 main_cst_8
  let main_v26 : IVec S384x384 1 := cmpf .olt main_v24 main_v25
  let main_c_9 : IVec S_ 1 := constantI S_ 1 1#1
  let main_v27 : IVec S_ 1 := (fun x v => Host.reduce IntOp.andi x v reducesTo_S384x384_S_d0_1 h_S_) main_v26 main_c_9
  let main_v28 : IVec S_ 1 := andi main_v23 main_v27
  main_v28

def fn {F : FTy → Type} [FloatOps F] (main_arg0 : FVec F S10000x4x128 .f32) (main_arg1 : IVec S2x160000 32) (main_arg2 : FVec F S128x128 .f32) (main_arg3 : FVec F S128x128 .f32) (main_arg4 : FVec F S128 .f32) (main_arg5 : FVec F S384x384 .f32) (main_arg6 : FVec F S384x384 .f32) : IVec S_ 1 :=
  let main_v0 : FVec F S10000x4x128 .f32 := Host.absf main_arg0
  let main_cst : FVec F S_ .f32 := constant S_ .f32 0x7F800000#32
  let main_v1 : FVec F S10000x4x128 .f32 := broadcastInDim S10000x4x128 ![] bcast_S_S10000x4x128 main_cst
  let main_v2 : IVec S10000x4x128 1 := cmpf .olt main_v0 main_v1
  let main_c : IVec S_ 1 := constantI S_ 1 1#1
  let main_v3 : IVec S_ 1 := (fun x v => Host.reduce IntOp.andi x v reducesTo_S10000x4x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S10000x4x128 : Shape := ⟨3, ![10000, 4, 128]⟩
abbrev S2x160000 : Shape := ⟨2, ![2, 160000]⟩
abbrev S128x128 : Shape := ⟨2, ![128, 128]⟩
abbrev S128 : Shape := ⟨1, ![128]⟩
abbrev S384x384 : Shape := ⟨2, ![384, 384]⟩
abbrev S10000x1x128 : Shape := ⟨3, ![10000, 1, 128]⟩
abbrev S10000x128 : Shape := ⟨2, ![10000, 128]⟩
abbrev S10000x3x128 : Shape := ⟨3, ![10000, 3, 128]⟩
abbrev S10000x384 : Shape := ⟨2, ![10000, 384]⟩
abbrev S1x160000 : Shape := ⟨2, ![1, 160000]⟩
abbrev S160000 : Shape := ⟨1, ![160000]⟩
abbrev S1x128 : Shape := ⟨2, ![1, 128]⟩
abbrev S2000x128 : Shape := ⟨2, ![2000, 128]⟩
abbrev S2000x384 : Shape := ⟨2, ![2000, 384]⟩
abbrev S_ : Shape := ⟨0, ![]⟩
abbrev S160000x1 : Shape := ⟨2, ![160000, 1]⟩
abbrev S160000x128 : Shape := ⟨2, ![160000, 128]⟩
abbrev S160000x384 : Shape := ⟨2, ![160000, 384]⟩

abbrev nBuf : Space → Nat
  | .hbm => 57
  | .vmem => 17
  | .smem => 0
  | _ => 0

abbrev bufTy : (tb : Table) → Fin (tcTables nBuf tb) → BufTy
  | .hbm, ⟨0, _⟩ => ⟨S10000x4x128, .f32⟩
  | .hbm, ⟨1, _⟩ => ⟨S2x160000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S384x384, .f32⟩
  | .hbm, ⟨6, _⟩ => ⟨S384x384, .f32⟩
  | .hbm, ⟨7, _⟩ => ⟨S10000x1x128, .f32⟩
  | .hbm, ⟨8, _⟩ => ⟨S10000x128, .f32⟩
  | .hbm, ⟨9, _⟩ => ⟨S10000x3x128, .f32⟩
  | .hbm, ⟨10, _⟩ => ⟨S10000x384, .f32⟩
  | .hbm, ⟨11, _⟩ => ⟨S1x160000, .i32⟩
  | .hbm, ⟨12, _⟩ => ⟨S160000, .i32⟩
  | .hbm, ⟨13, _⟩ => ⟨S1x160000, .i32⟩
  | .hbm, ⟨14, _⟩ => ⟨S160000, .i32⟩
  | .hbm, ⟨15, _⟩ => ⟨S128x128, .f32⟩
  | .hbm, ⟨16, _⟩ => ⟨S384x384, .f32⟩
  | .hbm, ⟨17, _⟩ => ⟨S128x128, .f32⟩
  | .hbm, ⟨18, _⟩ => ⟨S384x384, .f32⟩
  | .hbm, ⟨19, _⟩ => ⟨S1x128, .f32⟩
  | .hbm, ⟨20, _⟩ => ⟨S10000x128, .bf16⟩
  | .hbm, ⟨21, _⟩ => ⟨S10000x384, .bf16⟩
  | .hbm, ⟨22, _⟩ => ⟨S10000x128, .f32⟩
  | .hbm, ⟨23, _⟩ => ⟨S10000x384, .f32⟩
  | .hbm, ⟨24, _⟩ => ⟨S_, .i32⟩
  | .hbm, ⟨25, _⟩ => ⟨S160000, .i32⟩
  | .hbm, ⟨26, _⟩ => ⟨S160000, .i1⟩
  | .hbm, ⟨27, _⟩ => ⟨S_, .i32⟩
  | .hbm, ⟨28, _⟩ => ⟨S160000, .i32⟩
  | .hbm, ⟨29, _⟩ => ⟨S160000, .i32⟩
  | .hbm, ⟨30, _⟩ => ⟨S160000, .i32⟩
  | .hbm, ⟨31, _⟩ => ⟨S160000x1, .i32⟩
  | .hbm, ⟨32, _⟩ => ⟨S160000x128, .bf16⟩
  | .hbm, ⟨33, _⟩ => ⟨S160000x128, .f32⟩
  | .hbm, ⟨34, _⟩ => ⟨S_, .i32⟩
  | .hbm, ⟨35, _⟩ => ⟨S160000, .i32⟩
  | .hbm, ⟨36, _⟩ => ⟨S160000, .i1⟩
  | .hbm, ⟨37, _⟩ => ⟨S_, .i32⟩
  | .hbm, ⟨38, _⟩ => ⟨S160000, .i32⟩
  | .hbm, ⟨39, _⟩ => ⟨S160000, .i32⟩
  | .hbm, ⟨40, _⟩ => ⟨S160000, .i32⟩
  | .hbm, ⟨41, _⟩ => ⟨S160000x1, .i32⟩
  | .hbm, ⟨42, _⟩ => ⟨S160000x384, .bf16⟩
  | .hbm, ⟨43, _⟩ => ⟨S160000x384, .f32⟩
  | .hbm, ⟨44, _⟩ => ⟨S_, .f32⟩
  | .hbm, ⟨45, _⟩ => ⟨S10000x128, .f32⟩
  | .hbm, ⟨46, _⟩ => ⟨S160000x1, .i32⟩
  | .hbm, ⟨47, _⟩ => ⟨S10000x128, .f32⟩
  | .hbm, ⟨48, _⟩ => ⟨S_, .f32⟩
  | .hbm, ⟨49, _⟩ => ⟨S10000x384, .f32⟩
  | .hbm, ⟨50, _⟩ => ⟨S160000x1, .i32⟩
  | .hbm, ⟨51, _⟩ => ⟨S10000x384, .f32⟩
  | .hbm, ⟨52, _⟩ => ⟨S10000x128, .f32⟩
  | .hbm, ⟨53, _⟩ => ⟨S10000x384, .f32⟩
  | .hbm, ⟨54, _⟩ => ⟨S10000x3x128, .f32⟩
  | .hbm, ⟨55, _⟩ => ⟨S10000x1x128, .f32⟩
  | .hbm, ⟨56, _⟩ => ⟨S10000x4x128, .f32⟩
  | .local _ .vmem, ⟨0, _⟩ => ⟨S2000x128, .f32⟩
  | .local _ .vmem, ⟨1, _⟩ => ⟨S2000x128, .f32⟩
  | .local _ .vmem, ⟨2, _⟩ => ⟨S2000x384, .f32⟩
  | .local _ .vmem, ⟨3, _⟩ => ⟨S2000x384, .f32⟩
  | .local _ .vmem, ⟨4, _⟩ => ⟨S128x128, .f32⟩
  | .local _ .vmem, ⟨5, _⟩ => ⟨S384x384, .f32⟩
  | .local _ .vmem, ⟨6, _⟩ => ⟨S128x128, .f32⟩
  | .local _ .vmem, ⟨7, _⟩ => ⟨S384x384, .f32⟩
  | .local _ .vmem, ⟨8, _⟩ => ⟨S1x128, .f32⟩
  | .local _ .vmem, ⟨9, _⟩ => ⟨S2000x128, .bf16⟩
  | .local _ .vmem, ⟨10, _⟩ => ⟨S2000x128, .bf16⟩
  | .local _ .vmem, ⟨11, _⟩ => ⟨S2000x384, .bf16⟩
  | .local _ .vmem, ⟨12, _⟩ => ⟨S2000x384, .bf16⟩
  | .local _ .vmem, ⟨13, _⟩ => ⟨S2000x128, .f32⟩
  | .local _ .vmem, ⟨14, _⟩ => ⟨S2000x128, .f32⟩
  | .local _ .vmem, ⟨15, _⟩ => ⟨S2000x384, .f32⟩
  | .local _ .vmem, ⟨16, _⟩ => ⟨S2000x384, .f32⟩
  | _, _ => ⟨S10000x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S10000x4x128_S10000x1x128_0_0_0 : S10000x4x128.Slices ![0, 0, 0] S10000x1x128
  shapeCasts_S10000x1x128_S10000x128 : S10000x1x128.ShapeCasts S10000x128
  slices_S10000x4x128_S10000x3x128_0_1_0 : S10000x4x128.Slices ![0, 1, 0] S10000x3x128
  shapeCasts_S10000x3x128_S10000x384 : S10000x3x128.ShapeCasts S10000x384
  slices_S2x160000_S1x160000_0_0 : S2x160000.Slices ![0, 0] S1x160000
  shapeCasts_S1x160000_S160000 : S1x160000.ShapeCasts S160000
  slices_S2x160000_S1x160000_1_0 : S2x160000.Slices ![1, 0] S1x160000
  transposes_S128x128_S128x128_1_0 : S128x128.Transposes [1, 0] S128x128
  transposes_S384x384_S384x384_1_0 : S384x384.Transposes [1, 0] S384x384
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S384x384_S384x384_0_0 : ∀ a, (![0, 0] : Fin 2 → Nat) a + S384x384.size a ≤ S384x384.size a
  h_S384x384 : 0 < S384x384.numel
  shapeCasts_S384x384_S384x384 : S384x384.ShapeCasts S384x384
  packedbf16_S2000x128_S2000x128_0_0 : (Rect.unit (s := S2000x128) ![0, 0] S2000x128.size inb_S2000x128_S2000x128_0_0).PackedRows (EltTy.packing .bf16)
  packedbf16_S2000x384_S2000x384_0_0 : (Rect.unit (s := S2000x384) ![0, 0] S2000x384.size inb_S2000x384_S2000x384_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S160000 : S_.BroadcastsInDim S160000 (![] : Fin 0 → Fin S160000.rank)
  bcast_S160000_S160000x1_0 : S160000.BroadcastsInDim S160000x1 (![0] : Fin 1 → Fin S160000x1.rank)
  bcast_S_S10000x128 : S_.BroadcastsInDim S10000x128 (![] : Fin 0 → Fin S10000x128.rank)
  bcast_S_S10000x384 : S_.BroadcastsInDim S10000x384 (![] : Fin 0 → Fin S10000x384.rank)
  shapeCasts_S10000x384_S10000x3x128 : S10000x384.ShapeCasts S10000x3x128
  bcast_S10000x128_S10000x1x128_0_2 : S10000x128.BroadcastsInDim S10000x1x128 (![0, 2] : Fin 2 → Fin S10000x1x128.rank)
  concatenates_S10000x1x128_S10000x3x128_S10000x4x128_d1 : Shape.Concatenates [S10000x1x128, S10000x3x128] S10000x4x128 1
  dot_S2000x128_S128x128_S2000x128_1_0_0_1_n_n_wf : DotDims.WF S2000x128 S128x128 S2000x128 [1] [0] [0] [1] [] []
  dot_S2000x384_S384x384_S2000x384_1_0_0_1_n_n_wf : DotDims.WF S2000x384 S384x384 S2000x384 [1] [0] [0] [1] [] []
  gather_S10000x128_S160000x1_S160000x128_1_0_n_n_0_1_1128_wf : GatherDims.WF S10000x128 S160000x1 S160000x128 [1] [0] [] [0] [] 1 ![1, 128]
  gather_S10000x384_S160000x1_S160000x384_1_0_n_n_0_1_1384_wf : GatherDims.WF S10000x384 S160000x1 S160000x384 [1] [0] [] [0] [] 1 ![1, 384]
  scatter_S10000x128_S160000x1_S160000x128_1_0_0_1_wf : ScatterDims.WF S10000x128 S160000x1 S160000x128 [1] [0] [0] 1
  scatter_S10000x384_S160000x1_S160000x384_1_0_0_1_wf : ScatterDims.WF S10000x384 S160000x1 S160000x384 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x384.size a ≤ S10000x384.size a
  hwx0_1 : ∀ i : grid0.Coords, EltTy.bits .f32 = 32 ∨ (Rect.block (s := S10000x384) S2000x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .f32 = 32 ∨ (Rect.block (s := S384x384) S384x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x384.size a ≤ S384x384.size a
  hwx0_5 : ∀ i : grid0.Coords, EltTy.bits .f32 = 32 ∨ (Rect.block (s := S384x384) S384x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S10000x128.size a
  hwx0_7 : ∀ i : grid0.Coords, EltTy.bits .bf16 = 32 ∨ (Rect.block (s := S10000x128) S2000x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x384.size a ≤ S10000x384.size a
  hwx0_8 : ∀ i : grid0.Coords, EltTy.bits .bf16 = 32 ∨ (Rect.block (s := S10000x384) S2000x384.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S10000x128.size a
  hwx0_9 : ∀ i : grid0.Coords, EltTy.bits .f32 = 32 ∨ (Rect.block (s := S10000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x384.size a ≤ S10000x384.size a
  hwx0_10 : ∀ i : grid0.Coords, EltTy.bits .f32 = 32 ∨ (Rect.block (s := S10000x384) S2000x384.size (cc0_transform_10 i) (hinb0_10 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x384_S384x384_S2000x384_1_0_0_1_n_n : DotDims S2000x384 S384x384 S2000x384 where
  lhsContracting := [1]
  rhsContracting := [0]
  lhsNonContracting := [0]
  rhsNonContracting := [1]
  lhsBatch := []
  rhsBatch := []
  wf := dot_S2000x384_S384x384_S2000x384_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def gather_S10000x384_S160000x1_S160000x384_1_0_n_n_0_1_1384 : GatherDims S10000x384 S160000x1 S160000x384 where
  offsetDims := [1]
  collapsedSliceDims := [0]
  operandBatchingDims := []
  startIndicesBatchingDims := []
  startIndexMap := [0]
  indexVectorDim := 1
  sliceSizes := ![1, 384]
  wf := gather_S10000x384_S160000x1_S160000x384_1_0_n_n_0_1_1384_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def scatter_S10000x384_S160000x1_S160000x384_1_0_0_1 : ScatterDims S10000x384 S160000x1 S160000x384 where
  updateWindowDims := [1]
  insertedWindowDims := [0]
  scatterDimsToOperandDims := [0]
  indexVectorDim := 1
  wf := scatter_S10000x384_S160000x1_S160000x384_1_0_0_1_wf

abbrev win0_0 : Pipeline.Window sig grid0 :=
  Pipeline.Window.ofSpec (Memref.whole main_v1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S384x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_1) S2000x384.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_2) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v13_3) S2000x384.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S10000x4x128 : Shape := ⟨3, ![10000, 4, 128]⟩
abbrev S2x160000 : Shape := ⟨2, ![2, 160000]⟩
abbrev S128x128 : Shape := ⟨2, ![128, 128]⟩
abbrev S128 : Shape := ⟨1, ![128]⟩
abbrev S384x384 : Shape := ⟨2, ![384, 384]⟩
abbrev S10000x1x128 : Shape := ⟨3, ![10000, 1, 128]⟩
abbrev S10000x128 : Shape := ⟨2, ![10000, 128]⟩
abbrev S10000x3x128 : Shape := ⟨3, ![10000, 3, 128]⟩
abbrev S10000x384 : Shape := ⟨2, ![10000, 384]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x128 : Shape := ⟨2, ![160000, 128]⟩
abbrev S160000x384 : Shape := ⟨2, ![160000, 384]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S10000x4x128, .f32⟩
  | .hbm, ⟨1, _⟩ => ⟨S2x160000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S384x384, .f32⟩
  | .hbm, ⟨6, _⟩ => ⟨S384x384, .f32⟩
  | .hbm, ⟨7, _⟩ => ⟨S10000x1x128, .f32⟩
  | .hbm, ⟨8, _⟩ => ⟨S10000x128, .f32⟩
  | .hbm, ⟨9, _⟩ => ⟨S10000x3x128, .f32⟩
  | .hbm, ⟨10, _⟩ => ⟨S10000x384, .f32⟩
  | .hbm, ⟨11, _⟩ => ⟨S1x160000, .i32⟩
  | .hbm, ⟨12, _⟩ => ⟨S160000, .i32⟩
  | .hbm, ⟨13, _⟩ => ⟨S1x160000, .i32⟩
  | .hbm, ⟨14, _⟩ => ⟨S160000, .i32⟩
  | .hbm, ⟨15, _⟩ => ⟨S_, .i32⟩
  | .hbm, ⟨16, _⟩ => ⟨S160000, .i32⟩
  | .hbm, ⟨17, _⟩ => ⟨S160000, .i1⟩
  | .hbm, ⟨18, _⟩ => ⟨S_, .i32⟩
  | .hbm, ⟨19, _⟩ => ⟨S160000, .i32⟩
  | .hbm, ⟨20, _⟩ => ⟨S160000, .i32⟩
  | .hbm, ⟨21, _⟩ => ⟨S160000, .i32⟩
  | .hbm, ⟨22, _⟩ => ⟨S160000x1, .i32⟩
  | .hbm, ⟨23, _⟩ => ⟨S160000x128, .f32⟩
  | .hbm, ⟨24, _⟩ => ⟨S128x128, .f32⟩
  | .hbm, ⟨25, _⟩ => ⟨S160000x128, .f32⟩
  | .hbm, ⟨26, _⟩ => ⟨S_, .i32⟩
  | .hbm, ⟨27, _⟩ => ⟨S160000, .i32⟩
  | .hbm, ⟨28, _⟩ => ⟨S160000, .i1⟩
  | .hbm, ⟨29, _⟩ => ⟨S_, .i32⟩
  | .hbm, ⟨30, _⟩ => ⟨S160000, .i32⟩
  | .hbm, ⟨31, _⟩ => ⟨S160000, .i32⟩
  | .hbm, ⟨32, _⟩ => ⟨S160000, .i32⟩
  | .hbm, ⟨33, _⟩ => ⟨S160000x1, .i32⟩
  | .hbm, ⟨34, _⟩ => ⟨S160000x384, .f32⟩
  | .hbm, ⟨35, _⟩ => ⟨S384x384, .f32⟩
  | .hbm, ⟨36, _⟩ => ⟨S160000x384, .f32⟩
  | .hbm, ⟨37, _⟩ => ⟨S_, .f32⟩
  | .hbm, ⟨38, _⟩ => ⟨S10000x128, .f32⟩
  | .hbm, ⟨39, _⟩ => ⟨S160000x1, .i32⟩
  | .hbm, ⟨40, _⟩ => ⟨S10000x128, .f32⟩
  | .hbm, ⟨41, _⟩ => ⟨S_, .f32⟩
  | .hbm, ⟨42, _⟩ => ⟨S10000x384, .f32⟩
  | .hbm, ⟨43, _⟩ => ⟨S160000x1, .i32⟩
  | .hbm, ⟨44, _⟩ => ⟨S10000x384, .f32⟩
  | .hbm, ⟨45, _⟩ => ⟨S128x128, .f32⟩
  | .hbm, ⟨46, _⟩ => ⟨S10000x128, .f32⟩
  | .hbm, ⟨47, _⟩ => ⟨S1x128, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S384x384, .f32⟩
  | .hbm, ⟨52, _⟩ => ⟨S10000x384, .f32⟩
  | .hbm, ⟨53, _⟩ => ⟨S10000x384, .f32⟩
  | .hbm, ⟨54, _⟩ => ⟨S10000x3x128, .f32⟩
  | .hbm, ⟨55, _⟩ => ⟨S10000x1x128, .f32⟩
  | .hbm, ⟨56, _⟩ => ⟨S10000x4x128, .f32⟩
  | _, _ => ⟨S10000x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  slices_S10000x4x128_S10000x1x128_0_0_0 : S10000x4x128.Slices ![0, 0, 0] S10000x1x128
  shapeCasts_S10000x1x128_S10000x128 : S10000x1x128.ShapeCasts S10000x128
  slices_S10000x4x128_S10000x3x128_0_1_0 : S10000x4x128.Slices ![0, 1, 0] S10000x3x128
  shapeCasts_S10000x3x128_S10000x384 : S10000x3x128.ShapeCasts S10000x384
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  transposes_S128x128_S128x128_1_0 : S128x128.Transposes [1, 0] S128x128
  transposes_S384x384_S384x384_1_0 : S384x384.Transposes [1, 0] S384x384
  bcast_S_S10000x128 : S_.BroadcastsInDim S10000x128 (![] : Fin 0 → Fin S10000x128.rank)
  bcast_S_S10000x384 : S_.BroadcastsInDim S10000x384 (![] : Fin 0 → Fin S10000x384.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  shapeCasts_S10000x384_S10000x3x128 : S10000x384.ShapeCasts S10000x3x128
  bcast_S10000x128_S10000x1x128_0_2 : S10000x128.BroadcastsInDim S10000x1x128 (![0, 2] : Fin 2 → Fin S10000x1x128.rank)
  concatenates_S10000x1x128_S10000x3x128_S10000x4x128_d1 : Shape.Concatenates [S10000x1x128, S10000x3x128] S10000x4x128 1
  gather_S10000x128_S160000x1_S160000x128_1_0_n_n_0_1_1128_wf : GatherDims.WF S10000x128 S160000x1 S160000x128 [1] [0] [] [0] [] 1 ![1, 128]
  dot_S160000x128_S128x128_S160000x128_1_0_0_1_n_n_wf : DotDims.WF S160000x128 S128x128 S160000x128 [1] [0] [0] [1] [] []
  gather_S10000x384_S160000x1_S160000x384_1_0_n_n_0_1_1384_wf : GatherDims.WF S10000x384 S160000x1 S160000x384 [1] [0] [] [0] [] 1 ![1, 384]
  dot_S160000x384_S384x384_S160000x384_1_0_0_1_n_n_wf : DotDims.WF S160000x384 S384x384 S160000x384 [1] [0] [0] [1] [] []
  scatter_S10000x128_S160000x1_S160000x128_1_0_0_1_wf : ScatterDims.WF S10000x128 S160000x1 S160000x128 [1] [0] [0] 1
  scatter_S10000x384_S160000x1_S160000x384_1_0_0_1_wf : ScatterDims.WF S10000x384 S160000x1 S160000x384 [1] [0] [0] 1
  dot_S10000x128_S128x128_S10000x128_1_0_0_1_n_n_wf : DotDims.WF S10000x128 S128x128 S10000x128 [1] [0] [0] [1] [] []
  dot_S10000x384_S384x384_S10000x384_1_0_0_1_n_n_wf : DotDims.WF S10000x384 S384x384 S10000x384 [1] [0] [0] [1] [] []

variable [Facts₀]

def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def dot_S160000x128_S128x128_S160000x128_1_0_0_1_n_n : DotDims S160000x128 S128x128 S160000x128 where
  lhsContracting := [1]
  rhsContracting := [0]
  lhsNonContracting := [0]
  rhsNonContracting := [1]
  lhsBatch := []
  rhsBatch := []
  wf := dot_S160000x128_S128x128_S160000x128_1_0_0_1_n_n_wf
def gather_S10000x384_S160000x1_S160000x384_1_0_n_n_0_1_1384 : GatherDims S10000x384 S160000x1 S160000x384 where
  offsetDims := [1]
  collapsedSliceDims := [0]
  operandBatchingDims := []
  startIndicesBatchingDims := []
  startIndexMap := [0]
  indexVectorDim := 1
  sliceSizes := ![1, 384]
  wf := gather_S10000x384_S160000x1_S160000x384_1_0_n_n_0_1_1384_wf
def dot_S160000x384_S384x384_S160000x384_1_0_0_1_n_n : DotDims S160000x384 S384x384 S160000x384 where
  lhsContracting := [1]
  rhsContracting := [0]
  lhsNonContracting := [0]
  rhsNonContracting := [1]
  lhsBatch := []
  rhsBatch := []
  wf := dot_S160000x384_S384x384_S160000x384_1_0_0_1_n_n_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def scatter_S10000x384_S160000x1_S160000x384_1_0_0_1 : ScatterDims S10000x384 S160000x1 S160000x384 where
  updateWindowDims := [1]
  insertedWindowDims := [0]
  scatterDimsToOperandDims := [0]
  indexVectorDim := 1
  wf := scatter_S10000x384_S160000x1_S160000x384_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x384_S384x384_S10000x384_1_0_0_1_n_n : DotDims S10000x384 S384x384 S10000x384 where
  lhsContracting := [1]
  rhsContracting := [0]
  lhsNonContracting := [0]
  rhsNonContracting := [1]
  lhsBatch := []
  rhsBatch := []
  wf := dot_S10000x384_S384x384_S10000x384_1_0_0_1_n_n_wf

class Facts : Prop extends Facts₀ where

variable [Facts]
-- ==== Proof.Tail.lean ====
/-
  The host lines after the region, as one function of the six buffers they read.

  After the node transform has written its four arrays (the two "rel" products, in the narrow format, and the two
  "root" terms), the program gathers the rel rows at each edge's source node, sums them into the edge's destination
  node, adds the root term, and lays the scalar part and the three vector parts side by side along the middle axis.
  `out a7 a8 a9 a10 row col` is that result from the four arrays and the two index vectors; `wrapIdx col` is the
  index column the gathers read: a negative source index has the row count 10000 added, and the vector is laid as
  a one-column matrix. The lines read no other buffer, so what @main returns is `out` of the region's four
  arrays and of the two index vectors as the region found them.
-/
import proofs.«144898_j28321014350244_2_alg».proof.Proof.Gen.KernelIdeal.Frame
import Idealize.ShloMosaic.Lib.StableHlo.Run
import Idealize.ShloMosaic.PureOps.Ideal

noncomputable section

namespace Cert.KernelIdeal.Tail

open Cert.KernelIdeal Cert.KernelIdeal.Gen Idealize.ShloMosaic Idealize.ShloMosaic.TcCoe Idealize.SL.Sem Idealize.ShloMosaic.StableHlo

/-- The scalar part `[N, 1, H]` and the vector part `[N, 3, H]` joined along the middle axis. -/
def cat (a : FVec Ideal S10000x1x128 .f32) (b : FVec Ideal S10000x3x128 .f32) :
    FVec Ideal S10000x4x128 .f32 :=
  concatenate S10000x4x128 1 [⟨S10000x1x128, a⟩, ⟨S10000x3x128, b⟩] concatenates_S10000x1x128_S10000x3x128_S10000x4x128_d1

/-- The index column a gather reads: a negative index wrapped by the row count, the vector as one column. -/
def wrapIdx (col : IVec S160000 32) : IVec S160000x1 32 :=
  broadcastInDim S160000x1 ![0] bcast_S160000_S160000x1_0
    (select (cmpi .slt col (broadcastInDim S160000 ![] bcast_S_S160000 (constantI S_ 32 0#32)))
      (addi col (broadcastInDim S160000 ![] bcast_S_S160000 (constantI S_ 32 10000#32))) col)

/-- The scalar part before the join: the root term plus the messages `msg` summed into their destination rows. -/
def agg128 (root : FVec Ideal S10000x128 .f32) (row : IVec S160000 32)
    (msg : FVec Ideal S160000x128 .f32) : FVec Ideal S10000x128 .f32 :=
  addf root (Host.scatterAdd scatter_S10000x128_S160000x1_S160000x128_1_0_0_1
    (broadcastInDim S10000x128 ![] bcast_S_S10000x128 (constant (F := Ideal) S_ .f32 0x00000000#32))
    (broadcastInDim S160000x1 ![0] bcast_S160000_S160000x1_0 row) msg)

/-- The vector part before the reshape: the root term plus the messages summed into their destination rows. -/
def agg384 (root : FVec Ideal S10000x384 .f32) (row : IVec S160000 32)
    (msg : FVec Ideal S160000x384 .f32) : FVec Ideal S10000x384 .f32 :=
  addf root (Host.scatterAdd scatter_S10000x384_S160000x1_S160000x384_1_0_0_1
    (broadcastInDim S10000x384 ![] bcast_S_S10000x384 (constant (F := Ideal) S_ .f32 0x00000000#32))
    (broadcastInDim S160000x1 ![0] bcast_S160000_S160000x1_0 row) msg)

/-- The result from the two aggregated parts: the scalar part given a middle axis of extent one, the vector part
    reshaped to three rows of `H`, joined. -/
def join (s : FVec Ideal S10000x128 .f32) (v : FVec Ideal S10000x384 .f32) :
    FVec Ideal S10000x4x128 .f32 :=
  cat (broadcastInDim S10000x1x128 ![0, 2] bcast_S10000x128_S10000x1x128_0_2 s)
    (shapeCast _ v shapeCasts_S10000x384_S10000x3x128)

/-- The messages of the scalar part: the rel rows gathered at the wrapped source indices, widened. -/
def msg128 (a7 : FVec Ideal S10000x128 .bf16) (col : IVec S160000 32) :
    FVec Ideal S160000x128 .f32 :=
  extf .f32 (Host.gather gather_S10000x128_S160000x1_S160000x128_1_0_n_n_0_1_1128 a7 (wrapIdx col)) bitsLt_bf16_f32

/-- The messages of the vector part. -/
def msg384 (a8 : FVec Ideal S10000x384 .bf16) (col : IVec S160000 32) :
    FVec Ideal S160000x384 .f32 :=
  extf .f32 (Host.gather gather_S10000x384_S160000x1_S160000x384_1_0_n_n_0_1_1384 a8 (wrapIdx col)) bitsLt_bf16_f32

/-- What @main returns, from the region's four arrays and the two index vectors. -/
def out (a7 : FVec Ideal S10000x128 .bf16) (a8 : FVec Ideal S10000x384 .bf16)
    (a9 : FVec Ideal S10000x128 .f32) (a10 : FVec Ideal S10000x384 .f32)
    (row col : IVec S160000 32) : FVec Ideal S10000x4x128 .f32 :=
  join (agg128 a9 row (msg128 a7 col)) (agg384 a10 row (msg384 a8 col))

/-- The joining line's result, through `cat`: its two operands are the contents of the two buffers it reads. -/
theorem cat_result (ha hb hy) (W : Valuation τ sig (Elt Ideal)) :
    (StableHlo.binary main_v39 main_v38 main_v40 ((fun a b => concatenate S10000x4x128 1 [⟨S10000x1x128, a⟩, ⟨S10000x3x128, b⟩] concatenates_S10000x1x128_S10000x3x128_S10000x4x128_d1) : (⟨S10000x1x128, .f32⟩ : BufTy).Contents (Elt Ideal) → (⟨S10000x3x128, .f32⟩ : BufTy).Contents (Elt Ideal) → (⟨S10000x4x128, .f32⟩ : BufTy).Contents (Elt Ideal)) ha hb hy).result W (Proc.devRef .tc main_v40)
      = cat (W (Proc.devRef .tc main_v39)) (W (Proc.devRef .tc main_v38)) :=
  (StableHlo.binary_result main_v39 main_v38 main_v40 _ ha hb hy W).trans rfl

set_option maxHeartbeats 2000000 in
set_option maxRecDepth 8192 in
/-- The lines after the region, run from ANY buffer contents `W`, leave in the result buffer `out` of the six
    buffers they read. -/
theorem after_tail (W : Valuation τ sig (Elt Ideal)) :
    StableHlo.after (hostOps1 (F := Ideal)) W (Proc.devRef .tc main_v40)
      = out (W (Proc.devRef .tc main_v13_0)) (W (Proc.devRef .tc main_v13_1)) (W (Proc.devRef .tc main_v13_2))
          (W (Proc.devRef .tc main_v13_3)) (W (Proc.devRef .tc main_v5)) (W (Proc.devRef .tc main_v7)) := by
  simp only [after_cons, after_nil]
  rw [cat_result]
  after_results_simp
  rfl

variable (m : (ℓ : Loc nD τ sig) → Buf (Elt Ideal) ℓ)

/-- What @main returns after the frame run: `out` of the region's four arrays as the write-backs leave them and of
    the two index vectors as the region found them (the lines after the region read the arrays where the region's
    windows put them, and every other buffer as it was at the region's entry). -/
theorem tail_eq (c : Dev nD) :
    Pipeline.afterTail₀ cfgs (dats m) 0 (V0 m) [hostOps1] c main_v40
      = out ((dats m 0 c).arrAt 7 cfg0.N) ((dats m 0 c).arrAt 8 cfg0.N) ((dats m 0 c).arrAt 9 cfg0.N)
          ((dats m 0 c).arrAt 10 cfg0.N) (V m c main_v5) (V m c main_v7) := by
  unfold Pipeline.afterTail₀
  rw [List.flatten_cons, List.flatten_nil, List.append_nil, after_tail]
  have e7 : Pipeline.withArrays (cfgs 0).spec c (V0 m c) (fun w => (dats m 0 c).arrAt w (cfgs 0).N) (Proc.devRef .tc main_v13_0)
      = (dats m 0 c).arrAt 7 cfg0.N := Pipeline.withArrays_arr spec0 launch0.win.arr_inj c _ _ 7
  have e8 : Pipeline.withArrays (cfgs 0).spec c (V0 m c) (fun w => (dats m 0 c).arrAt w (cfgs 0).N) (Proc.devRef .tc main_v13_1)
      = (dats m 0 c).arrAt 8 cfg0.N := Pipeline.withArrays_arr spec0 launch0.win.arr_inj c _ _ 8
  have e9 : Pipeline.withArrays (cfgs 0).spec c (V0 m c) (fun w => (dats m 0 c).arrAt w (cfgs 0).N) (Proc.devRef .tc main_v13_2)
      = (dats m 0 c).arrAt 9 cfg0.N := Pipeline.withArrays_arr spec0 launch0.win.arr_inj c _ _ 9
  have e10 : Pipeline.withArrays (cfgs 0).spec c (V0 m c) (fun w => (dats m 0 c).arrAt w (cfgs 0).N) (Proc.devRef .tc main_v13_3)
      = (dats m 0 c).arrAt 10 cfg0.N := Pipeline.withArrays_arr spec0 launch0.win.arr_inj c _ _ 10
  have er : Pipeline.withArrays (cfgs 0).spec c (V0 m c) (fun w => (dats m 0 c).arrAt w (cfgs 0).N) (Proc.devRef .tc main_v5)
      = V m c main_v5 := Pipeline.withArrays_of_ne _ c (V0 m c) _ main_v5 (by exact (by decide : ∀ w, Pipeline.arrRef spec0 w ≠ main_v5))
  have ec : Pipeline.withArrays (cfgs 0).spec c (V0 m c) (fun w => (dats m 0 c).arrAt w (cfgs 0).N) (Proc.devRef .tc main_v7)
      = V m c main_v7 := Pipeline.withArrays_of_ne _ c (V0 m c) _ main_v7 (by exact (by decide : ∀ w, Pipeline.arrRef spec0 w ≠ main_v7))
  rw [e7, e8, e9, e10, er, ec]

end Cert.KernelIdeal.Tail

end
-- ==== Proof.Entry.lean ====
/-
  What the region finds in its input arrays, as the same layout stages the reference applies to its arguments.

  Before the node transform the program cuts the node features into the scalar part (row 0 of the middle axis,
  reshaped to [N, H]) and the vector part (rows 1..3, reshaped to [N, 3H]), cuts the edge list into destination and
  source indices, transposes the four weight matrices and lays the bias as a one-row matrix. The reference cuts,
  reshapes and transposes its arguments in the same way, so each array the region finds is the reference's stage
  of the same argument.
-/
import proofs.«144898_j28321014350244_2_alg».proof.Proof.Gen.KernelIdeal.Frame
import proofs.«144898_j28321014350244_2_alg».proof.Proof.Gen.ReferenceIdeal.Read
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem Idealize.ShloMosaic.StableHlo
open Cert.ReferenceIdeal.Read (val_main_v1 val_main_v3 val_main_v5 val_main_v7 val_main_v15 val_main_v24 val_main_v32 val_main_v38 val_main_v0 val_main_v2 val_main_v4 val_main_v6)

variable (m : (ℓ : Loc nD τ sig) → Buf (Elt Ideal) ℓ)

/-- The scalar features the region finds. -/
theorem V_v1 (c : Dev nD) : V m c main_v1 = val_main_v1 (F := Ideal) (m ((c : Thread nD τ).loc main_arg0)) := by
  dsimp only [V, V0]
  rw [List.flatten_cons, List.flatten_nil, List.append_nil]
  after_results
  rfl

/-- The vector features the region finds. -/
theorem V_v3 (c : Dev nD) : V m c main_v3 = val_main_v3 (F := Ideal) (m ((c : Thread nD τ).loc main_arg0)) := by
  dsimp only [V, V0]
  rw [List.flatten_cons, List.flatten_nil, List.append_nil]
  after_results
  rfl

/-- The destination indices. -/
theorem V_v5 (c : Dev nD) : V m c main_v5 = val_main_v5 (F := Ideal) (m ((c : Thread nD τ).loc main_arg1)) := by
  dsimp only [V, V0]
  rw [List.flatten_cons, List.flatten_nil, List.append_nil]
  after_results
  rfl

/-- The source indices. -/
theorem V_v7 (c : Dev nD) : V m c main_v7 = val_main_v7 (F := Ideal) (m ((c : Thread nD τ).loc main_arg1)) := by
  dsimp only [V, V0]
  rw [List.flatten_cons, List.flatten_nil, List.append_nil]
  after_results
  rfl

/-- The transposed scalar rel weight. -/
theorem V_v8 (c : Dev nD) : V m c main_v8 = val_main_v15 (F := Ideal) (m ((c : Thread nD τ).loc main_arg2)) := by
  dsimp only [V, V0]
  rw [List.flatten_cons, List.flatten_nil, List.append_nil]
  after_results
  rfl

/-- The transposed vector rel weight. -/
theorem V_v9 (c : Dev nD) : V m c main_v9 = val_main_v24 (F := Ideal) (m ((c : Thread nD τ).loc main_arg5)) := by
  dsimp only [V, V0]
  rw [List.flatten_cons, List.flatten_nil, List.append_nil]
  after_results
  rfl

/-- The transposed scalar root weight. -/
theorem V_v10 (c : Dev nD) : V m c main_v10 = val_main_v32 (F := Ideal) (m ((c : Thread nD τ).loc main_arg3)) := by
  dsimp only [V, V0]
  rw [List.flatten_cons, List.flatten_nil, List.append_nil]
  after_results
  rfl

/-- The transposed vector root weight. -/
theorem V_v11 (c : Dev nD) : V m c main_v11 = val_main_v38 (F := Ideal) (m ((c : Thread nD τ).loc main_arg6)) := by
  dsimp only [V, V0]
  rw [List.flatten_cons, List.flatten_nil, List.append_nil]
  after_results
  rfl

/-- The bias as a one-row matrix. -/
theorem V_v12 (c : Dev nD) : V m c main_v12 = shapeCast S1x128 (m ((c : Thread nD τ).loc main_arg4)) shapeCasts_S128_S1x128 := by
  dsimp only [V, V0]
  rw [List.flatten_cons, List.flatten_nil, List.append_nil]
  after_results
  rfl

end Cert.KernelIdeal.Entry

end
-- ==== Proof.LibPlainHostDot.lean ====
/-
  The host's matrix product with plain dimension numbers, read at an entry in exact arithmetic.

  A `stablehlo.dot_general` of a rows-by-`K` matrix with a `K`-by-columns matrix (one contracted axis, nothing
  batched) is, at the entry `(p, c)`, the sum over the contracted coordinate `a` of the left factor at `(p, a)`
  times the right factor at `(a, c)`. On the extended reals this is a plain finite sum: no accumulator is added
  and nothing is cancelled, so no finiteness of the entries is needed.
-/
import Idealize.ShloMosaic.PureOps.Ideal.Laws
import Idealize.ShloMosaic.Lib.ValueIdx

noncomputable section

open scoped BigOperators

namespace Cert.LibPlainHostDot

open Idealize.ShloMosaic Idealize.ShloMosaic.ValueIdx

/-- A plain `R × K` by `K × C` host product read at `(p, c)` in exact arithmetic: `∑ a, l (p, a) * r (a, c)`.
    The hypotheses `hl0 … hr1` say the dimension numbers are the plain ones: the left factor's index takes its row
    from the output index and its column from the contraction index, the right factor's its row from the
    contraction index and its column from the output index. -/
theorem hostDot_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    Host.dotGeneral D prec l r (ix2 p c) = ∑ a : Fin K, l (ix2 p a) * r (ix2 a c) := by
  show FloatOps.dotGeneral D prec .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainHostDot

end
-- ==== Proof.LibDense.lean ====
/-
  The product of two matrices over the extended reals as one function of the entry, and the host's plain
  `dot_general` as that function.

  `dense x w` at the entry `(p, c)` is the sum over the inner coordinate `a` of `x (p, a) * w (a, c)`. A sum of
  products on the extended reals needs no finiteness: nothing is distributed or cancelled.
-/
import proofs.«144898_j28321014350244_2_alg».proof.Proof.LibPlainHostDot

noncomputable section

open scoped BigOperators

namespace Cert.LibDense

open Idealize.ShloMosaic Idealize.ShloMosaic.ValueIdx

/-- The product of a rows-by-`K` matrix with a `K`-by-columns matrix, entry by entry. -/
def dense {R K C : Nat} (x : (⟨2, ![R, K]⟩ : Shape).Idx → EReal) (w : (⟨2, ![K, C]⟩ : Shape).Idx → EReal) :
    (⟨2, ![R, C]⟩ : Shape).Idx → EReal :=
  fun i => ∑ a : Fin K, x (ix2 (⟨(i 0).val, idx2_lt0 i⟩ : Fin R) a) * w (ix2 a (⟨(i 1).val, idx2_lt1 i⟩ : Fin C))

/-- At an entry given by its two coordinates. -/
theorem dense_ix2 {R K C : Nat} (x : (⟨2, ![R, K]⟩ : Shape).Idx → EReal) (w : (⟨2, ![K, C]⟩ : Shape).Idx → EReal)
    (p : Fin R) (c : Fin C) : dense x w (ix2 p c) = ∑ a : Fin K, x (ix2 p a) * w (ix2 a c) := rfl

/-- The product depends on the left factor only through the rows it reads, on the right factor through all of it:
    two left factors that agree on row `p` give the same entries in row `p`. -/
theorem dense_congr_row {R R' K C : Nat} (x : (⟨2, ![R, K]⟩ : Shape).Idx → EReal) (x' : (⟨2, ![R', K]⟩ : Shape).Idx → EReal)
    (w : (⟨2, ![K, C]⟩ : Shape).Idx → EReal) (p : Fin R) (p' : Fin R') (c : Fin C)
    (h : ∀ a : Fin K, x (ix2 p a) = x' (ix2 p' a)) : dense x w (ix2 p c) = dense x' w (ix2 p' c) := by
  rw [dense_ix2, dense_ix2]
  exact Finset.sum_congr rfl fun a _ => by rw [h a]

/-- The host's plain product is `dense`. The hypotheses say the dimension numbers are the plain ones (see
    `Cert.LibPlainHostDot.hostDot_plain`). -/
theorem hostDot_eq_dense {R K C : Nat}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ .f32) (r : FVec Ideal ⟨2, ![K, C]⟩ .f32) :
    Host.dotGeneral D prec l r = dense l r := by
  funext i
  obtain ⟨p, c, rfl⟩ : ∃ (p : Fin R) (c : Fin C), i = ix2 p c := ⟨i 0, i 1, eq_ix2 i⟩
  exact Cert.LibPlainHostDot.hostDot_plain D hr hs hl0 hl1 hr0 hr1 prec l r p c

end Cert.LibDense

end
-- ==== Proof.Spec.lean ====
/-
  The node transform as functions of an entry.

  A node's new features are a matrix product of its old features with a weight matrix, for the root term with a
  bias row added to every row. `denseBias x w b` at the entry `(p, c)` is the sum over the inner coordinate `a` of
  `x (p, a) * w (a, c)`, plus `b (0, c)`, the bias being laid as a one-row matrix. On the extended reals these are
  plain finite sums and one addition: nothing is distributed or cancelled, so no entry needs to be finite.

  `clampRow R s` is the row a clamping row gather reads for the index word `s`: the word read as a signed integer
  and clamped into `[0, R - 1]`.
-/
import proofs.«144898_j28321014350244_2_alg».proof.Proof.LibDense

noncomputable section

open scoped BigOperators

namespace Cert.NodeSpec

open Idealize.ShloMosaic Idealize.ShloMosaic.ValueIdx Cert.LibDense

/-- The matrix product with a bias row (a one-row matrix) added to every row, entry by entry. -/
def denseBias {R K C : Nat} (x : (⟨2, ![R, K]⟩ : Shape).Idx → EReal) (w : (⟨2, ![K, C]⟩ : Shape).Idx → EReal)
    (b : (⟨2, ![1, C]⟩ : Shape).Idx → EReal) : (⟨2, ![R, C]⟩ : Shape).Idx → EReal :=
  fun i => dense x w i + b (ix2 (0 : Fin 1) (⟨(i 1).val, idx2_lt1 i⟩ : Fin C))

/-- At an entry given by its two coordinates. -/
theorem denseBias_ix2 {R K C : Nat} (x : (⟨2, ![R, K]⟩ : Shape).Idx → EReal) (w : (⟨2, ![K, C]⟩ : Shape).Idx → EReal)
    (b : (⟨2, ![1, C]⟩ : Shape).Idx → EReal) (p : Fin R) (c : Fin C) :
    denseBias x w b (ix2 p c) = dense x w (ix2 p c) + b (ix2 (0 : Fin 1) c) := rfl

/-- The row a clamping row gather of an `R`-row operand reads for the index word `s`: `s` as a signed integer,
    clamped into `[0, R - 1]`. -/
def clampRow (R : Nat) (hR : 0 < R) {w : Nat} (s : BitVec w) : Fin R := ⟨min s.toInt.toNat (R - 1), by omega⟩

end Cert.NodeSpec

end
-- ==== Proof.LibRowGatherScatter.lean ====
/-
  ROW GATHER AND ROW SCATTER-ADD READ AT AN INDEX, for any extents.

  For an operand of shape [R, C], an integer array of row indices of shape [N, 1] and a result / updates array of
  shape [N, C]:
  * the row gather h[s] (offset_dims [1], collapsed_slice_dims [0], start_index_map [0], index_vector_dim 1,
    slice_sizes [1, C]) at (e, k) is the operand at row s[e, 0] — read as a signed integer and clamped into
    [0, R − 1] — and column k (rowGather_apply);
  * the row scatter-add (segment sum: update_window_dims [1], inserted_window_dims [0],
    scatter_dims_to_operand_dims [0], index_vector_dim 1) sends update (e, k) to operand index (s[e, 0], k), the row
    read signed and NOT clamped, the update dropped when that row is outside [0, R) (rowScatter_resultIdx); so at the
    exact (extended-real) instance its result at (n, k) is the operand's element plus the sum of the updates
    upd[e, k] over the rows e with s[e, 0] = n (rowScatterAdd_apply).
-/
import Idealize.ShloMosaic.PureOps.Ideal.Laws
import Idealize.ShloMosaic.Lib.ValueIdx

noncomputable section

open scoped BigOperators

namespace Cert.LibRowGatherScatter

open Idealize.ShloMosaic Idealize.ShloMosaic.ValueIdx

/-! ## The row scatter-add -/

/-- The row scatter-add (a segment sum over rows): update_window_dims [1], inserted_window_dims [0],
    scatter_dims_to_operand_dims [0], index_vector_dim 1, for an operand [R, C], scatter indices [N, 1] and updates
    [N, C]. -/
abbrev rowScatterDims (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

section Scatter
variable {R C N w : Nat} (wf : ScatterDims.WF ⟨2, ![R, C]⟩ ⟨2, ![N, 1]⟩ ⟨2, ![N, C]⟩ [1] [0] [0] 1)

/-- On the row axis the window of update (e, k) starts at the scatter index s[e, 0], read as a signed integer. -/
theorem rowScatter_start0 (idx : IVec ⟨2, ![N, 1]⟩ w) (e : Fin N) (k : Fin C) :
    (rowScatterDims R C N wf).start (ix2 e k) idx (0 : Fin 2) = (idx (ix2 e (0 : Fin 1))).toInt := by
  unfold ScatterDims.start
  rw [dif_pos (show (0 : Fin 2) ∈ (rowScatterDims R C N wf).scatterDimsToOperandDims from List.mem_singleton.mpr rfl)]
  have hsi : (rowScatterDims R C N wf).siIdx (ix2 e k) ⟨List.idxOf (0 : Fin 2) (rowScatterDims R C N wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the window starts at 0. -/
theorem rowScatter_start1 (idx : IVec ⟨2, ![N, 1]⟩ w) (e : Fin N) (k : Fin C) :
    (rowScatterDims R C N wf).start (ix2 e k) idx (1 : Fin 2) = 0 := by
  unfold ScatterDims.start
  rw [dif_neg (show (1 : Fin 2) ∉ (rowScatterDims R C N wf).scatterDimsToOperandDims from
    (show (1 : Fin 2) ∉ [(0 : Fin 2)] by decide))]

/-- The row axis is an inserted window axis: the window coordinate of update (e, k) there is 0. -/
theorem rowScatter_window0 (e : Fin N) (k : Fin C) :
    (rowScatterDims R C N wf).window (ix2 e k) (0 : Fin 2) = 0 := by
  unfold ScatterDims.window
  rw [dif_neg (show (0 : Fin 2) ∉ (rowScatterDims R C N wf).sKept from
    (show (0 : Fin 2) ∉ [(1 : Fin 2)] by decide))]

/-- The column axis is the one window axis: the window coordinate of update (e, k) there is k. -/
theorem rowScatter_window1 (e : Fin N) (k : Fin C) :
    (rowScatterDims R C N wf).window (ix2 e k) (1 : Fin 2) = k.val := by
  unfold ScatterDims.window
  rw [dif_pos (show (1 : Fin 2) ∈ (rowScatterDims R C N wf).sKept from
    (show (1 : Fin 2) ∈ [(1 : Fin 2)] by decide))]
  rfl

/-- WHERE AN UPDATE LANDS: update (e, k) lands at operand index (n, k') exactly when the scatter index s[e, 0], read
    as a signed integer and not clamped, is n, and k = k'. (An update whose row is outside [0, R) lands nowhere.) -/
theorem rowScatter_resultIdx (idx : IVec ⟨2, ![N, 1]⟩ w) (e : Fin N) (k : Fin C) (n : Fin R) (k' : Fin C) :
    (rowScatterDims R C N wf).resultIdx? (ix2 e k) idx = some (ix2 n k')
      ↔ (idx (ix2 e (0 : Fin 1))).toInt = (n.val : Int) ∧ k = k' := by
  have hs0 := rowScatter_start0 wf idx e k
  have hs1 := rowScatter_start1 wf idx e k
  have hw0 := rowScatter_window0 wf e k
  have hw1 := rowScatter_window1 wf e k
  unfold ScatterDims.resultIdx?
  split
  · rename_i h
    rw [Option.some.injEq]
    have h00 := h (0 : Fin 2)
    rw [hs0, hw0] at h00
    constructor
    · intro hEq
      have h0 : ((rowScatterDims R C N wf).start (ix2 e k) idx (0 : Fin 2)
          + (rowScatterDims R C N wf).window (ix2 e k) (0 : Fin 2)).toNat = n.val :=
        congrArg Fin.val (congrFun hEq (0 : Fin 2))
      have h1 : ((rowScatterDims R C N wf).start (ix2 e k) idx (1 : Fin 2)
          + (rowScatterDims R C N wf).window (ix2 e k) (1 : Fin 2)).toNat = k'.val :=
        congrArg Fin.val (congrFun hEq (1 : Fin 2))
      rw [hs0, hw0] at h0
      rw [hs1, hw1] at h1
      refine ⟨by omega, Fin.ext (by omega)⟩
    · rintro ⟨ht, rfl⟩
      funext a
      refine Fin.ext ?_
      match a with
      | ⟨0, _⟩ =>
        show ((rowScatterDims R C N wf).start (ix2 e k) idx (0 : Fin 2)
          + (rowScatterDims R C N wf).window (ix2 e k) (0 : Fin 2)).toNat = n.val
        rw [hs0, hw0]; omega
      | ⟨1, _⟩ =>
        show ((rowScatterDims R C N wf).start (ix2 e k) idx (1 : Fin 2)
          + (rowScatterDims R C N wf).window (ix2 e k) (1 : Fin 2)).toNat = k.val
        rw [hs1, hw1]; omega
  · rename_i h
    constructor
    · intro hEq; exact absurd hEq (by simp)
    · rintro ⟨ht, rfl⟩
      exfalso; apply h
      intro a
      match a with
      | ⟨0, _⟩ =>
        show 0 ≤ (rowScatterDims R C N wf).start (ix2 e k) idx (0 : Fin 2)
            + (rowScatterDims R C N wf).window (ix2 e k) (0 : Fin 2)
          ∧ (rowScatterDims R C N wf).start (ix2 e k) idx (0 : Fin 2)
            + (rowScatterDims R C N wf).window (ix2 e k) (0 : Fin 2) < (R : Int)
        rw [hs0, hw0]
        have := n.isLt
        omega
      | ⟨1, _⟩ =>
        show 0 ≤ (rowScatterDims R C N wf).start (ix2 e k) idx (1 : Fin 2)
            + (rowScatterDims R C N wf).window (ix2 e k) (1 : Fin 2)
          ∧ (rowScatterDims R C N wf).start (ix2 e k) idx (1 : Fin 2)
            + (rowScatterDims R C N wf).window (ix2 e k) (1 : Fin 2) < (C : Int)
        rw [hs1, hw1]
        have := k.isLt
        omega

/-- THE SCATTER-ADD READ AT (n, k), at the exact instance: the operand's element plus the sum of the updates
    upd[e, k] over the rows e whose scatter index s[e, 0], read signed, is n. -/
theorem rowScatterAdd_apply (x : (⟨2, ![R, C]⟩ : Shape).Idx → EReal) (idx : IVec ⟨2, ![N, 1]⟩ w)
    (upd : (⟨2, ![N, C]⟩ : Shape).Idx → EReal) (n : Fin R) (k : Fin C) :
    Ideal.hostScatterAdd (rowScatterDims R C N wf) x idx upd (ix2 n k)
      = x (ix2 n k) + ∑ e ∈ Finset.univ.filter (fun e : Fin N => (idx (ix2 e (0 : Fin 1))).toInt = (n.val : Int)),
          upd (ix2 e k) := by
  unfold Ideal.hostScatterAdd
  congr 1
  rw [Finset.sum_filter, Finset.sum_filter, sum_idx2]
  refine Finset.sum_congr rfl fun e _ => ?_
  simp only [rowScatter_resultIdx]
  by_cases ht : (idx (ix2 e (0 : Fin 1))).toInt = (n.val : Int)
  · simp only [ht, true_and, if_true]
    exact Finset.sum_ite_eq' Finset.univ k (fun b => upd (ix2 e b)) |>.trans (by simp)
  · simp [ht]

end Scatter

/-! ## The row gather -/

/-- The row gather h[s]: offset_dims [1], collapsed_slice_dims [0], start_index_map [0], index_vector_dim 1,
    slice_sizes [1, C], for an operand [R, C], start indices [N, 1] and a result [N, C]. -/
abbrev rowGatherDims (R C N : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, k): the operand at row s[e, 0], read as a signed integer and clamped into
    [0, R − 1], and column k. -/
theorem rowGather_apply {α : Type} {R C N w : Nat} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (e : Fin N) (k : Fin C) :
    Host.gather (rowGatherDims R C N wf) x idx (ix2 e k)
      = x (ix2 ⟨min (idx (ix2 e (0 : Fin 1))).toInt.toNat (R - 1), by omega⟩ k) := by
  unfold Host.gather
  congr 1
  funext a
  refine Fin.ext ?_
  match a with
  | ⟨0, _⟩ =>
    show (rowGatherDims R C N wf).start (ix2 e k) idx (0 : Fin 2)
        + (rowGatherDims R C N wf).batchCoord (ix2 e k) (0 : Fin 2)
        + (rowGatherDims R C N wf).offCoord (ix2 e k) (0 : Fin 2) = min (idx (ix2 e (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R C N wf).startIndexMap from List.mem_singleton.mpr rfl)]
    have hsi : (rowGatherDims R C N wf).siIdx (ix2 e k) ⟨List.idxOf (0 : Fin 2) (rowGatherDims R C N wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims R C N wf).start (ix2 e k) idx (1 : Fin 2)
        + (rowGatherDims R C N wf).batchCoord (ix2 e k) (1 : Fin 2)
        + (rowGatherDims R C N wf).offCoord (ix2 e k) (1 : Fin 2) = k.val
    rw [GatherDims.batchCoord_eq_zero _ _ _ List.not_mem_nil]
    have hst : (rowGatherDims R C N wf).start (ix2 e k) idx (1 : Fin 2) = 0 := by
      unfold GatherDims.start
      rw [dif_neg (show (1 : Fin 2) ∉ (rowGatherDims R C N wf).startIndexMap from
        (show (1 : Fin 2) ∉ [(0 : Fin 2)] by decide))]
    have hoff : (rowGatherDims R C N wf).offCoord (ix2 e k) (1 : Fin 2) = k.val := by
      unfold GatherDims.offCoord
      rw [dif_pos (show (1 : Fin 2) ∈ (rowGatherDims R C N wf).sKept from
        (show (1 : Fin 2) ∈ [(1 : Fin 2)] by decide))]
      rfl
    rw [hst, hoff]
    omega

end Cert.LibRowGatherScatter

end
-- ==== Proof.RefValue.lean ====
/-
  The reference program's dense stages as functions of an entry.

  The reference gathers rows of the node features with an edge's source index and multiplies the gathered rows by
  the transposed weight. A matrix product is row-local: row `e` of the product of the gathered rows with the weight
  is row `s e` of the product of ALL node features with the weight, where `s e` is the row the gather reads for
  edge `e` (the index word read as a signed integer and clamped into the operand's rows). So the message of an edge
  is an entry of the node-level product `dense`. The root terms are node-level products outright, one of them with
  a bias row added to every row.
-/
import proofs.«144898_j28321014350244_2_alg».proof.Proof.Gen.ReferenceIdeal.Read
import proofs.«144898_j28321014350244_2_alg».proof.Proof.Spec
import proofs.«144898_j28321014350244_2_alg».proof.Proof.LibRowGatherScatter
import Idealize.ShloMosaic.Lib.ValueIdx

noncomputable section
open Idealize.ShloMosaic Idealize.ShloMosaic.TcCoe Idealize.SL.Sem Idealize.ShloMosaic.ValueIdx Cert.LibDense Cert.NodeSpec

namespace Cert.ReferenceIdeal.RefValue
open Cert.ReferenceIdeal Cert.ReferenceIdeal.Read

/-- The edge-level product of the 128-wide features is the plain matrix product. -/
theorem edgeDot128 (l : FVec Ideal S160000x128 .f32) (r : FVec Ideal S128x128 .f32) :
    Host.dotGeneral dot_S160000x128_S128x128_S160000x128_1_0_0_1_n_n none l r
      = dense (R := 160000) (K := 128) (C := 128) l r :=
  hostDot_eq_dense (R := 160000) (K := 128) (C := 128) dot_S160000x128_S128x128_S160000x128_1_0_0_1_n_n rfl rfl
    lhs_main_v16_0 lhs_main_v16_1 rhs_main_v16_0 rhs_main_v16_1 none l r

/-- The row gather of the 128-wide features at `(e, k)`: the operand at the clamped row of edge `e`, column `k`. -/
theorem gather128 (x : FVec Ideal S10000x128 .f32) (idx : IVec S160000x1 32) (e : Fin 160000) (k : Fin 128) :
    Host.gather gather_S10000x128_S160000x1_S160000x128_1_0_n_n_0_1_1128 x idx (ix2 e k)
      = x (ix2 (clampRow 10000 (by decide) (idx (ix2 e (0 : Fin 1)))) k) :=
  Cert.LibRowGatherScatter.rowGather_apply (R := 10000) (C := 128) (N := 160000) (by decide)
    Facts₀.gather_S10000x128_S160000x1_S160000x128_1_0_n_n_0_1_1128_wf x idx e k

/-- The scalar message of edge `e` at column `h`: the entry, in the row the gather reads for `e`, of the product of ALL
    node features with the transposed rel weight. -/
theorem msg128 (x0 : (⟨S10000x4x128, .f32⟩ : BufTy).Contents (Elt Ideal)) (x1 : (⟨S2x160000, .i32⟩ : BufTy).Contents (Elt Ideal))
    (x2 : (⟨S128x128, .f32⟩ : BufTy).Contents (Elt Ideal)) (e : Fin 160000) (h : Fin 128) :
    val_main_v16 (F := Ideal) x0 x1 x2 (ix2 e h)
      = dense (R := 10000) (K := 128) (C := 128) (val_main_v1 (F := Ideal) x0) (val_main_v15 (F := Ideal) x2)
          (ix2 (clampRow 10000 (by decide) (val_main_v13 (F := Ideal) x1 (ix2 e (0 : Fin 1)))) h) := by
  unfold val_main_v16
  refine (congrFun (edgeDot128 _ _) _).trans ?_
  refine dense_congr_row _ _ _ e _ h fun a => ?_
  unfold val_main_v14
  exact gather128 _ _ e a

/-- The edge-level product of the 384-wide features is the plain matrix product. -/
theorem edgeDot384 (l : FVec Ideal S160000x384 .f32) (r : FVec Ideal S384x384 .f32) :
    Host.dotGeneral dot_S160000x384_S384x384_S160000x384_1_0_0_1_n_n none l r
      = dense (R := 160000) (K := 384) (C := 384) l r :=
  hostDot_eq_dense (R := 160000) (K := 384) (C := 384) dot_S160000x384_S384x384_S160000x384_1_0_0_1_n_n rfl rfl
    lhs_main_v25_0 lhs_main_v25_1 rhs_main_v25_0 rhs_main_v25_1 none l r

/-- The row gather of the 384-wide features at `(e, k)`: the operand at the clamped row of edge `e`, column `k`. -/
theorem gather384 (x : FVec Ideal S10000x384 .f32) (idx : IVec S160000x1 32) (e : Fin 160000) (k : Fin 384) :
    Host.gather gather_S10000x384_S160000x1_S160000x384_1_0_n_n_0_1_1384 x idx (ix2 e k)
      = x (ix2 (clampRow 10000 (by decide) (idx (ix2 e (0 : Fin 1)))) k) :=
  Cert.LibRowGatherScatter.rowGather_apply (R := 10000) (C := 384) (N := 160000) (by decide)
    Facts₀.gather_S10000x384_S160000x1_S160000x384_1_0_n_n_0_1_1384_wf x idx e k

/-- The vector message of edge `e` at column `h`: the same for the 384-wide features. -/
theorem msg384 (x0 : (⟨S10000x4x128, .f32⟩ : BufTy).Contents (Elt Ideal)) (x1 : (⟨S2x160000, .i32⟩ : BufTy).Contents (Elt Ideal))
    (x5 : (⟨S384x384, .f32⟩ : BufTy).Contents (Elt Ideal)) (e : Fin 160000) (h : Fin 384) :
    val_main_v25 (F := Ideal) x0 x1 x5 (ix2 e h)
      = dense (R := 10000) (K := 384) (C := 384) (val_main_v3 (F := Ideal) x0) (val_main_v24 (F := Ideal) x5)
          (ix2 (clampRow 10000 (by decide) (val_main_v22 (F := Ideal) x1 (ix2 e (0 : Fin 1)))) h) := by
  unfold val_main_v25
  refine (congrFun (edgeDot384 _ _) _).trans ?_
  refine dense_congr_row _ _ _ e _ h fun a => ?_
  unfold val_main_v23
  exact gather384 _ _ e a

/-- The bias row laid over every row: at `(p, c)` it is the one-row bias at `(0, c)`. -/
theorem biasRow128 (x4 : (⟨S128, .f32⟩ : BufTy).Contents (Elt Ideal)) (p : Fin 10000) (c : Fin 128) :
    val_main_v35 (F := Ideal) x4 (ix2 p c) = val_main_v34 (F := Ideal) x4 (ix2 (0 : Fin 1) c) := by
  rw [val_main_v35_apply]
  refine congrArg _ (funext fun a => Fin.ext ?_)
  match a with
  | ⟨0, _⟩ => rfl
  | ⟨1, _⟩ => rfl

/-- The scalar root term: the product of the node features with the transposed root weight, plus the bias row. -/
theorem root128 (x0 : (⟨S10000x4x128, .f32⟩ : BufTy).Contents (Elt Ideal)) (x3 : (⟨S128x128, .f32⟩ : BufTy).Contents (Elt Ideal))
    (x4 : (⟨S128, .f32⟩ : BufTy).Contents (Elt Ideal)) :
    val_main_v36 (F := Ideal) x0 x3 x4
      = denseBias (R := 10000) (K := 128) (C := 128) (val_main_v1 (F := Ideal) x0) (val_main_v32 (F := Ideal) x3) (val_main_v34 (F := Ideal) x4) := by
  funext i
  obtain ⟨p, c, rfl⟩ : ∃ (p : Fin 10000) (c : Fin 128), i = ix2 p c := ⟨i 0, i 1, eq_ix2 i⟩
  rw [denseBias_ix2, val_main_v36_apply, biasRow128]
  unfold val_main_v33
  rw [hostDot_eq_dense (R := 10000) (K := 128) (C := 128) dot_S10000x128_S128x128_S10000x128_1_0_0_1_n_n rfl rfl
    lhs_main_v33_0 lhs_main_v33_1 rhs_main_v33_0 rhs_main_v33_1 none]
  rfl

/-- The vector root term: the product of the node features with the transposed root weight. -/
theorem root384 (x0 : (⟨S10000x4x128, .f32⟩ : BufTy).Contents (Elt Ideal)) (x6 : (⟨S384x384, .f32⟩ : BufTy).Contents (Elt Ideal)) :
    val_main_v39 (F := Ideal) x0 x6
      = dense (R := 10000) (K := 384) (C := 384) (val_main_v3 (F := Ideal) x0) (val_main_v38 (F := Ideal) x6) := by
  unfold val_main_v39
  exact hostDot_eq_dense (R := 10000) (K := 384) (C := 384) dot_S10000x384_S384x384_S10000x384_1_0_0_1_n_n rfl rfl
    lhs_main_v39_0 lhs_main_v39_1 rhs_main_v39_0 rhs_main_v39_1 none _ _

end Cert.ReferenceIdeal.RefValue
end
-- ==== Proof.Bridge.lean ====
/-
  The two programs compute one function.

  Both programs end with the same lines: the messages are summed into their destination rows, the root term is
  added, and the scalar and vector parts are joined. They differ only in where the rel weight is applied. The
  reference gathers the source node's features for every edge and multiplies the gathered rows by the weight; the
  kernel multiplies every node's features by the weight once and gathers rows of the product. A matrix product
  is row-local, and both gathers read the same row (the source index wrapped when negative, then clamped into the
  rows), so the two message arrays agree entry by entry: both are the entry of the node-level product in the row
  the gather reads. The root terms are the same node-level products. Nothing is distributed over a sum or
  cancelled, so no entry has to be finite.
-/
import proofs.«144898_j28321014350244_2_alg».proof.Proof.Tail
import proofs.«144898_j28321014350244_2_alg».proof.Proof.Entry
import proofs.«144898_j28321014350244_2_alg».proof.Proof.RefValue
import proofs.«144898_j28321014350244_2_alg».proof.Proof.LibRowGatherScatter
import proofs.«144898_j28321014350244_2_alg».proof.Proof.Spec
import Idealize.ShloMosaic.Lib.ValueIdx
import Idealize.ShloMosaic.Lib.Pipeline.Value

noncomputable section

namespace Cert.Bridge

open Idealize.ShloMosaic Idealize.ShloMosaic.TcCoe Idealize.SL.Sem Idealize.ShloMosaic.ValueIdx Cert.LibDense Cert.NodeSpec
open Cert.KernelIdeal Cert.KernelIdeal.Gen
open Cert.ReferenceIdeal.Read

/-! ## The reference's result through the shared closing lines -/

/-- The reference's result is the join of its two aggregated parts, each a root term plus the messages summed into
    their destination rows: its closing lines are the kernel program's. -/
theorem ref_result (x0 : (⟨Cert.ReferenceIdeal.S10000x4x128, .f32⟩ : BufTy).Contents (Elt Ideal))
    (x1 : (⟨Cert.ReferenceIdeal.S2x160000, .i32⟩ : BufTy).Contents (Elt Ideal))
    (x2 x3 : (⟨Cert.ReferenceIdeal.S128x128, .f32⟩ : BufTy).Contents (Elt Ideal))
    (x4 : (⟨Cert.ReferenceIdeal.S128, .f32⟩ : BufTy).Contents (Elt Ideal))
    (x5 x6 : (⟨Cert.ReferenceIdeal.S384x384, .f32⟩ : BufTy).Contents (Elt Ideal)) :
    val_main_v43 (F := Ideal) x0 x1 x2 x3 x4 x5 x6
      = Tail.join (Tail.agg128 (val_main_v36 (F := Ideal) x0 x3 x4) (val_main_v5 (F := Ideal) x1) (val_main_v16 (F := Ideal) x0 x1 x2))
          (Tail.agg384 (val_main_v39 (F := Ideal) x0 x6) (val_main_v5 (F := Ideal) x1) (val_main_v25 (F := Ideal) x0 x1 x5)) := by
  unfold val_main_v43 val_main_v42 val_main_v41 val_main_v37 val_main_v40 val_main_v28 val_main_v31 val_main_v26
    val_main_v27 val_main_v29 val_main_v30 val_main_cst val_main_cst_3 Tail.join Tail.cat Tail.agg128 Tail.agg384
  rfl

/-- The index column the kernel program's first gather reads is the reference's. -/
theorem wrapIdx_eq (x1 : (⟨Cert.ReferenceIdeal.S2x160000, .i32⟩ : BufTy).Contents (Elt Ideal)) :
    Tail.wrapIdx (val_main_v7 (F := Ideal) x1) = val_main_v13 (F := Ideal) x1 := by
  unfold Tail.wrapIdx val_main_v13 val_main_v12 val_main_v11 val_main_v9 val_main_v8 val_main_v10 val_main_c val_main_c_0
  rfl

/-- The index column the kernel program's second gather reads is the reference's. -/
theorem wrapIdx_eq' (x1 : (⟨Cert.ReferenceIdeal.S2x160000, .i32⟩ : BufTy).Contents (Elt Ideal)) :
    Tail.wrapIdx (val_main_v7 (F := Ideal) x1) = val_main_v22 (F := Ideal) x1 := by
  unfold Tail.wrapIdx val_main_v22 val_main_v21 val_main_v20 val_main_v18 val_main_v17 val_main_v19 val_main_c_1 val_main_c_2
  rfl

/-! ## The kernel program's gathers read a row -/

/-- The gather of the 128-wide rel rows at `(e, k)`: the operand at the clamped row of edge `e`, column `k`. -/
theorem gather128 (x : FVec Ideal S10000x128 .bf16) (idx : IVec S160000x1 32) (e : Fin 160000) (k : Fin 128) :
    Host.gather gather_S10000x128_S160000x1_S160000x128_1_0_n_n_0_1_1128 x idx (ix2 e k)
      = x (ix2 (clampRow 10000 (by decide) (idx (ix2 e (0 : Fin 1)))) k) :=
  Cert.LibRowGatherScatter.rowGather_apply (R := 10000) (C := 128) (N := 160000) (by decide)
    Facts₀.gather_S10000x128_S160000x1_S160000x128_1_0_n_n_0_1_1128_wf x idx e k

/-- The gather of the 384-wide rel rows at `(e, k)`. -/
theorem gather384 (x : FVec Ideal S10000x384 .bf16) (idx : IVec S160000x1 32) (e : Fin 160000) (k : Fin 384) :
    Host.gather gather_S10000x384_S160000x1_S160000x384_1_0_n_n_0_1_1384 x idx (ix2 e k)
      = x (ix2 (clampRow 10000 (by decide) (idx (ix2 e (0 : Fin 1)))) k) :=
  Cert.LibRowGatherScatter.rowGather_apply (R := 10000) (C := 384) (N := 160000) (by decide)
    Facts₀.gather_S10000x384_S160000x1_S160000x384_1_0_n_n_0_1_1384_wf x idx e k

/-- A scalar message at `(e, k)`: the rel row the gather reads for edge `e`, column `k` (the widening changes nothing
    in exact arithmetic). -/
theorem msg128_apply (a7 : FVec Ideal S10000x128 .bf16) (col : IVec S160000 32) (e : Fin 160000) (k : Fin 128) :
    Tail.msg128 a7 col (ix2 e k) = a7 (ix2 (clampRow 10000 (by decide) (Tail.wrapIdx col (ix2 e (0 : Fin 1)))) k) :=
  gather128 a7 (Tail.wrapIdx col) e k

/-- A vector message at `(e, k)`. -/
theorem msg384_apply (a8 : FVec Ideal S10000x384 .bf16) (col : IVec S160000 32) (e : Fin 160000) (k : Fin 384) :
    Tail.msg384 a8 col (ix2 e k) = a8 (ix2 (clampRow 10000 (by decide) (Tail.wrapIdx col (ix2 e (0 : Fin 1)))) k) :=
  gather384 a8 (Tail.wrapIdx col) e k

/-! ## Messages and root terms agree -/

variable (m : (ℓ : Loc nD τ sig) → Buf (Elt Ideal) ℓ)

/-- The scalar messages: rows of the node-level product gathered, against the product of gathered rows. -/
theorem msg128_eq (c : Dev nD)
    (h7 : (dats m 0 c).arrAt 7 cfg0.N = dense (R := 10000) (K := 128) (C := 128) (V m c main_v1) (V m c main_v8)) :
    Tail.msg128 ((dats m 0 c).arrAt 7 cfg0.N) (V m c main_v7)
      = val_main_v16 (F := Ideal) (m ((c : Thread nD τ).loc main_arg0)) (m ((c : Thread nD τ).loc main_arg1)) (m ((c : Thread nD τ).loc main_arg2)) := by
  rw [h7, Entry.V_v1, Entry.V_v8, Entry.V_v7]
  funext i
  obtain ⟨e, h, rfl⟩ : ∃ (e : Fin 160000) (h : Fin 128), i = ix2 e h := ⟨i 0, i 1, eq_ix2 i⟩
  rw [Cert.ReferenceIdeal.RefValue.msg128, ← wrapIdx_eq]
  exact msg128_apply _ _ e h

/-- The vector messages. -/
theorem msg384_eq (c : Dev nD)
    (h8 : (dats m 0 c).arrAt 8 cfg0.N = dense (R := 10000) (K := 384) (C := 384) (V m c main_v3) (V m c main_v9)) :
    Tail.msg384 ((dats m 0 c).arrAt 8 cfg0.N) (V m c main_v7)
      = val_main_v25 (F := Ideal) (m ((c : Thread nD τ).loc main_arg0)) (m ((c : Thread nD τ).loc main_arg1)) (m ((c : Thread nD τ).loc main_arg5)) := by
  rw [h8, Entry.V_v3, Entry.V_v9, Entry.V_v7]
  funext i
  obtain ⟨e, h, rfl⟩ : ∃ (e : Fin 160000) (h : Fin 384), i = ix2 e h := ⟨i 0, i 1, eq_ix2 i⟩
  rw [Cert.ReferenceIdeal.RefValue.msg384, ← wrapIdx_eq']
  exact msg384_apply _ _ e h

/-- The bias laid as a one-row matrix by a reshape is the bias laid as a one-row matrix by a broadcast. -/
theorem bias_row (x4 : (⟨Cert.ReferenceIdeal.S128, .f32⟩ : BufTy).Contents (Elt Ideal)) :
    shapeCast S1x128 x4 Facts₀.shapeCasts_S128_S1x128 = val_main_v34 (F := Ideal) x4 := by
  funext i
  rw [val_main_v34_apply]
  exact shapeCast_apply x4 _ i (idx_main_v34 i) (by
    rewrite [Shape.rowMajor_val_one, Shape.rowMajor_val_two]
    have h0 : (i 0).val < 1 := (i 0).isLt
    show (i 1).val = (i 0).val * 128 + (i 1).val
    omega)

/-- The scalar root term. -/
theorem root128_eq (c : Dev nD)
    (h9 : (dats m 0 c).arrAt 9 cfg0.N = denseBias (R := 10000) (K := 128) (C := 128) (V m c main_v1) (V m c main_v10) (V m c main_v12)) :
    (dats m 0 c).arrAt 9 cfg0.N
      = val_main_v36 (F := Ideal) (m ((c : Thread nD τ).loc main_arg0)) (m ((c : Thread nD τ).loc main_arg3)) (m ((c : Thread nD τ).loc main_arg4)) := by
  rw [h9, Entry.V_v1, Entry.V_v10, Entry.V_v12, Cert.ReferenceIdeal.RefValue.root128, bias_row]

/-- The vector root term. -/
theorem root384_eq (c : Dev nD)
    (h10 : (dats m 0 c).arrAt 10 cfg0.N = dense (R := 10000) (K := 384) (C := 384) (V m c main_v3) (V m c main_v11)) :
    (dats m 0 c).arrAt 10 cfg0.N
      = val_main_v39 (F := Ideal) (m ((c : Thread nD τ).loc main_arg0)) (m ((c : Thread nD τ).loc main_arg6)) := by
  rw [h10, Entry.V_v3, Entry.V_v11, Cert.ReferenceIdeal.RefValue.root384]

/-! ## The results agree -/

/-- What the kernel program returns is what the reference returns on the same arguments. -/
theorem result_eq (c : Dev nD)
    (h7 : (dats m 0 c).arrAt 7 cfg0.N = dense (R := 10000) (K := 128) (C := 128) (V m c main_v1) (V m c main_v8))
    (h8 : (dats m 0 c).arrAt 8 cfg0.N = dense (R := 10000) (K := 384) (C := 384) (V m c main_v3) (V m c main_v9))
    (h9 : (dats m 0 c).arrAt 9 cfg0.N = denseBias (R := 10000) (K := 128) (C := 128) (V m c main_v1) (V m c main_v10) (V m c main_v12))
    (h10 : (dats m 0 c).arrAt 10 cfg0.N = dense (R := 10000) (K := 384) (C := 384) (V m c main_v3) (V m c main_v11)) :
    Tail.out ((dats m 0 c).arrAt 7 cfg0.N) ((dats m 0 c).arrAt 8 cfg0.N) ((dats m 0 c).arrAt 9 cfg0.N)
        ((dats m 0 c).arrAt 10 cfg0.N) (V m c main_v5) (V m c main_v7)
      = val_main_v43 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [ref_result]
  unfold Tail.out
  rw [msg128_eq m c h7, msg384_eq m c h8, root128_eq m c h9, root384_eq m c h10, Entry.V_v5]

end Cert.Bridge

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.Payload.lean ====
/-
  The body's four stored values, entry by entry.

  Each store writes a matrix product of a block of rows with a whole weight matrix (for the root term with the
  one-row bias added to every row). In exact arithmetic a change of float format is the identity, so the
  narrowings before and after the product vanish, and the product accumulated into the zero matrix is, at the
  entry `(p, q)`, the sum over the inner coordinate `a` of the left factor at `(p, a)` times the right factor at
  `(a, q)`.
-/
import proofs.«144898_j28321014350244_2_alg».proof.Proof.Gen.KernelIdeal.Skeleton
import proofs.«144898_j28321014350244_2_alg».proof.Proof.LibPlainDot
import proofs.«144898_j28321014350244_2_alg».proof.Proof.Spec
import Idealize.ShloMosaic.Lib.ValueIdx
import Idealize.ShloMosaic.Lib.ValueLayout
import Idealize.ShloMosaic.Lib.Pipeline.Value

noncomputable section

open scoped BigOperators

namespace Cert.KernelIdeal.Payload

open Idealize.ShloMosaic Idealize.ShloMosaic.ValueIdx Cert.KernelIdeal Cert.KernelIdeal.Gen

/-! ## The two products' dimension numbers are the plain ones -/

/-- The 128-wide product: the left factor's row is the output's row. -/
theorem lhs128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Its column is the contracted coordinate. -/
theorem lhs128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right factor's row is the contracted coordinate. -/
theorem rhs128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- Its column is the output's column. -/
theorem rhs128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The 384-wide product: the left factor's row is the output's row. -/
theorem lhs384_0 (i : S2000x384.Idx) (q : dot_S2000x384_S384x384_S2000x384_1_0_0_1_n_n.contr.Idx) :
    (dot_S2000x384_S384x384_S2000x384_1_0_0_1_n_n.lhsIdx i q 0).val = (i 0).val := by
  unfold DotDims.lhsIdx
  rw [dif_neg (show ¬(0 : Fin S2000x384.rank) ∈ dot_S2000x384_S384x384_S2000x384_1_0_0_1_n_n.lhsBatch by decide), dif_pos (show (0 : Fin S2000x384.rank) ∈ dot_S2000x384_S384x384_S2000x384_1_0_0_1_n_n.lhsNonContracting by decide)]
  rfl
/-- Its column is the contracted coordinate. -/
theorem lhs384_1 (i : S2000x384.Idx) (q : dot_S2000x384_S384x384_S2000x384_1_0_0_1_n_n.contr.Idx) :
    (dot_S2000x384_S384x384_S2000x384_1_0_0_1_n_n.lhsIdx i q 1).val = (q ⟨0, by decide⟩).val :=
  dot_S2000x384_S384x384_S2000x384_1_0_0_1_n_n.lhsIdx_val_of_single rfl i q
/-- The right factor's row is the contracted coordinate. -/
theorem rhs384_0 (i : S2000x384.Idx) (q : dot_S2000x384_S384x384_S2000x384_1_0_0_1_n_n.contr.Idx) :
    (dot_S2000x384_S384x384_S2000x384_1_0_0_1_n_n.rhsIdx i q 0).val = (q ⟨0, by decide⟩).val :=
  dot_S2000x384_S384x384_S2000x384_1_0_0_1_n_n.rhsIdx_val_of_single rfl i q
/-- Its column is the output's column. -/
theorem rhs384_1 (i : S2000x384.Idx) (q : dot_S2000x384_S384x384_S2000x384_1_0_0_1_n_n.contr.Idx) :
    (dot_S2000x384_S384x384_S2000x384_1_0_0_1_n_n.rhsIdx i q 1).val = (i 1).val := by
  unfold DotDims.rhsIdx
  rw [dif_neg (show ¬(1 : Fin S384x384.rank) ∈ dot_S2000x384_S384x384_S2000x384_1_0_0_1_n_n.rhsBatch by decide), dif_pos (show (1 : Fin S384x384.rank) ∈ dot_S2000x384_S384x384_S2000x384_1_0_0_1_n_n.rhsNonContracting by decide)]
  rfl

/-! ## The two products into the zero matrix, at an entry -/

/-- A 2000-by-128 block times a 128-by-128 matrix, accumulated into zero. -/
theorem matmul128 {φ₁ φ₂ : FTy} (l : FVec Ideal S2000x128 φ₁) (r : FVec Ideal S128x128 φ₂) (p : Fin 2000) (q : Fin 128) :
    FloatOps.matmul dot_S2000x128_S128x128_S2000x128_1_0_0_1_n_n none l r (constant S2000x128 .f32 0x00000000#32) (ix2 p q)
      = ∑ a : Fin 128, l (ix2 p a) * r (ix2 a q) :=
  Cert.LibPlainDot.matmul_zero_plain dot_S2000x128_S128x128_S2000x128_1_0_0_1_n_n rfl rfl lhs128_0 lhs128_1 rhs128_0 rhs128_1 none l r p q

/-- A 2000-by-384 block times a 384-by-384 matrix, accumulated into zero. -/
theorem matmul384 {φ₁ φ₂ : FTy} (l : FVec Ideal S2000x384 φ₁) (r : FVec Ideal S384x384 φ₂) (p : Fin 2000) (q : Fin 384) :
    FloatOps.matmul dot_S2000x384_S384x384_S2000x384_1_0_0_1_n_n none l r (constant S2000x384 .f32 0x00000000#32) (ix2 p q)
      = ∑ a : Fin 384, l (ix2 p a) * r (ix2 a q) :=
  Cert.LibPlainDot.matmul_zero_plain dot_S2000x384_S384x384_S2000x384_1_0_0_1_n_n rfl rfl lhs384_0 lhs384_1 rhs384_0 rhs384_1 none l r p q

/-! ## The stored values at an entry -/

/-- The message product of the 128-wide features, narrowed for storing: in exact arithmetic the product itself. -/
theorem pay3_apply (v0 : Vec Ideal S2000x128 .f32) (v6 : Vec Ideal S128x128 .f32) (p : Fin 2000) (q : Fin 128) :
    k0_pay3 v0 v6 (ix2 p q) = ∑ a : Fin 128, v0 (ix2 p a) * v6 (ix2 a q) := by
  unfold k0_pay3 k0_pay1
  dsimp only
  rw [shapeCast_self, shapeCast_self]
  exact matmul128 (truncf .bf16 v0 bitsLt_bf16_f32) (truncf .bf16 v6 bitsLt_bf16_f32) p q

/-- The message product of the 384-wide features. -/
theorem pay4_apply (v3 : Vec Ideal S2000x384 .f32) (v9 : Vec Ideal S384x384 .f32) (p : Fin 2000) (q : Fin 384) :
    k0_pay4 v3 v9 (ix2 p q) = ∑ a : Fin 384, v3 (ix2 p a) * v9 (ix2 a q) := by
  unfold k0_pay4 k0_pay2
  dsimp only
  rw [shapeCast_self, shapeCast_self]
  exact matmul384 (truncf .bf16 v3 bitsLt_bf16_f32) (truncf .bf16 v9 bitsLt_bf16_f32) p q

/-- The root product of the 128-wide features plus the bias row. -/
theorem pay5_apply (v0 : Vec Ideal S2000x128 .f32) (v12 : Vec Ideal S128x128 .f32) (v25 : Vec Ideal S1x128 .f32)
    (p : Fin 2000) (q : Fin 128) :
    k0_pay5 v0 v12 v25 (ix2 p q) = (∑ a : Fin 128, v0 (ix2 p a) * v12 (ix2 a q)) + v25 (ix2 (0 : Fin 1) q) := by
  unfold k0_pay5 k0_pay1
  dsimp only
  rw [shapeCast_self, shapeCast_self, shapeCast_self]
  refine (addf_apply _ _ _).trans ?_
  refine congrArg₂ (· + ·) ?_ ?_
  · exact matmul128 (truncf .bf16 v0 bitsLt_bf16_f32) (truncf .bf16 v12 bitsLt_bf16_f32) p q
  · exact broadcastTo_1b_ab_apply v25 broadcasts_S1x128_S2000x128 p q

/-- The root product of the 384-wide features. -/
theorem pay6_apply (v3 : Vec Ideal S2000x384 .f32) (v15 : Vec Ideal S384x384 .f32) (p : Fin 2000) (q : Fin 384) :
    k0_pay6 v3 v15 (ix2 p q) = ∑ a : Fin 384, v3 (ix2 p a) * v15 (ix2 a q) := by
  unfold k0_pay6 k0_pay2
  dsimp only
  rw [shapeCast_self, shapeCast_self]
  exact matmul384 (truncf .bf16 v3 bitsLt_bf16_f32) (truncf .bf16 v15 bitsLt_bf16_f32) p q

end Cert.KernelIdeal.Payload

end
-- ==== Proof.Region.lean ====
/-
  The four arrays the node-transform region writes, as matrix products of the arrays it reads.

  The grid has five points. Point `t` reads rows `2000 t … 2000 t + 1999` of the two feature arrays and the whole of
  each weight matrix and of the bias row, and writes the same rows of each of the four results: the product of the
  feature rows with a weight matrix, for the 128-wide root term with the bias row added. The five row blocks fill
  the 10000 rows, so after the region each result array is the whole product: the entry `(r, c)` was written by
  the point `r / 2000`, from row `r` of the features and column `c` of the weights.
-/
import proofs.«144898_j28321014350244_2_alg».proof.Proof.Gen.KernelIdeal.Frame
import proofs.«144898_j28321014350244_2_alg».proof.Proof.Payload
import proofs.«144898_j28321014350244_2_alg».proof.Proof.Spec
import Idealize.ShloMosaic.Lib.ValueIdx
import Idealize.ShloMosaic.Lib.Pipeline.Value

noncomputable section

open scoped BigOperators
open Idealize.ShloMosaic Idealize.ShloMosaic.TcCoe Idealize.SL.Sem Idealize.ShloMosaic.ValueIdx Cert.LibDense Cert.NodeSpec

namespace Cert.KernelIdeal.Region

open Cert.KernelIdeal Cert.KernelIdeal.Gen Cert.KernelIdeal.Payload

variable (m : (ℓ : Loc nD τ sig) → Buf (Elt Ideal) ℓ)

/-- The zero offsets of a whole-buffer access. -/
theorem hz : (![0, 0] : Fin 2 → Nat) = fun _ => 0 := funext fun a => by fin_cases a <;> rfl

/-! ## The index maps, decided over the five points -/

/-- The row-blocked windows (the two feature arrays and the four results) sit at block `(t, 0)` at point `t`. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
/-- The weight matrices and the bias row are read whole, at block `(0, 0)`, at every point. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-! ## Rows of a block as rows of the array -/

/-- Row `p` of the block at point `t` is a row of the 10000-row arrays. -/
theorem rowLt (t : Fin cfg0.N) (p : Fin 2000) : t.val * 2000 + p.val < 10000 := by
  have ht := t.isLt
  have hN : cfg0.N = 5 := N_0
  omega

/-- Row `p` of the block at point `t` is row `2000 t + p` of the array. -/
def rowOf (t : Fin cfg0.N) (p : Fin 2000) : Fin 10000 := ⟨t.val * 2000 + p.val, rowLt t p⟩

/-! ## The blocks the body reads -/

/-- The block of the 128-wide features at point `t`: rows `2000 t …` of the array. -/
theorem blk0_read (c : Dev nD) (t : Fin cfg0.N) (p : Fin 2000) (a : Fin 128) :
    iblk m c 0 t (ix2 p a) = V m c main_v1 (ix2 (rowOf t p) a) := by
  obtain ⟨e0, e1⟩ := idx0 t
  show V m c main_v1 (((cfg0.win 0).blk t).view.emb (ix2 p a)) = V m c main_v1 (ix2 (rowOf t p) a)
  refine congrArg _ (funext fun ax => Fin.ext ?_)
  match ax with
  | ⟨0, _⟩ => show win0_0.index t (0 : Fin 2) * 2000 + 1 * p.val = t.val * 2000 + p.val; rw [e0]; omega
  | ⟨1, _⟩ => show win0_0.index t (1 : Fin 2) * 128 + 1 * a.val = a.val; rw [e1]; omega

/-- The block of the 384-wide features at point `t`: rows `2000 t …` of the array. -/
theorem blk1_read (c : Dev nD) (t : Fin cfg0.N) (p : Fin 2000) (a : Fin 384) :
    iblk m c 1 t (ix2 p a) = V m c main_v3 (ix2 (rowOf t p) a) := by
  obtain ⟨e0, e1⟩ := idx1 t
  show V m c main_v3 (((cfg0.win 1).blk t).view.emb (ix2 p a)) = V m c main_v3 (ix2 (rowOf t p) a)
  refine congrArg _ (funext fun ax => Fin.ext ?_)
  match ax with
  | ⟨0, _⟩ => show win0_1.index t (0 : Fin 2) * 2000 + 1 * p.val = t.val * 2000 + p.val; rw [e0]; omega
  | ⟨1, _⟩ => show win0_1.index t (1 : Fin 2) * 384 + 1 * a.val = a.val; rw [e1]; omega

/-- The message weights of the 128-wide features, whole at every point. -/
theorem blk2_read (c : Dev nD) (t : Fin cfg0.N) (a : Fin 128) (q : Fin 128) :
    iblk m c 2 t (ix2 a q) = V m c main_v8 (ix2 a q) := by
  obtain ⟨e0, e1⟩ := idx2 t
  show V m c main_v8 (((cfg0.win 2).blk t).view.emb (ix2 a q)) = V m c main_v8 (ix2 a q)
  refine congrArg _ (funext fun ax => Fin.ext ?_)
  match ax with
  | ⟨0, _⟩ => show win0_2.index t (0 : Fin 2) * 128 + 1 * a.val = a.val; rw [e0]; omega
  | ⟨1, _⟩ => show win0_2.index t (1 : Fin 2) * 128 + 1 * q.val = q.val; rw [e1]; omega

/-- The message weights of the 384-wide features, whole at every point. -/
theorem blk3_read (c : Dev nD) (t : Fin cfg0.N) (a : Fin 384) (q : Fin 384) :
    iblk m c 3 t (ix2 a q) = V m c main_v9 (ix2 a q) := by
  obtain ⟨e0, e1⟩ := idx3 t
  show V m c main_v9 (((cfg0.win 3).blk t).view.emb (ix2 a q)) = V m c main_v9 (ix2 a q)
  refine congrArg _ (funext fun ax => Fin.ext ?_)
  match ax with
  | ⟨0, _⟩ => show win0_3.index t (0 : Fin 2) * 384 + 1 * a.val = a.val; rw [e0]; omega
  | ⟨1, _⟩ => show win0_3.index t (1 : Fin 2) * 384 + 1 * q.val = q.val; rw [e1]; omega

/-- The root weights of the 128-wide features, whole at every point. -/
theorem blk4_read (c : Dev nD) (t : Fin cfg0.N) (a : Fin 128) (q : Fin 128) :
    iblk m c 4 t (ix2 a q) = V m c main_v10 (ix2 a q) := by
  obtain ⟨e0, e1⟩ := idx4 t
  show V m c main_v10 (((cfg0.win 4).blk t).view.emb (ix2 a q)) = V m c main_v10 (ix2 a q)
  refine congrArg _ (funext fun ax => Fin.ext ?_)
  match ax with
  | ⟨0, _⟩ => show win0_4.index t (0 : Fin 2) * 128 + 1 * a.val = a.val; rw [e0]; omega
  | ⟨1, _⟩ => show win0_4.index t (1 : Fin 2) * 128 + 1 * q.val = q.val; rw [e1]; omega

/-- The root weights of the 384-wide features, whole at every point. -/
theorem blk5_read (c : Dev nD) (t : Fin cfg0.N) (a : Fin 384) (q : Fin 384) :
    iblk m c 5 t (ix2 a q) = V m c main_v11 (ix2 a q) := by
  obtain ⟨e0, e1⟩ := idx5 t
  show V m c main_v11 (((cfg0.win 5).blk t).view.emb (ix2 a q)) = V m c main_v11 (ix2 a q)
  refine congrArg _ (funext fun ax => Fin.ext ?_)
  match ax with
  | ⟨0, _⟩ => show win0_5.index t (0 : Fin 2) * 384 + 1 * a.val = a.val; rw [e0]; omega
  | ⟨1, _⟩ => show win0_5.index t (1 : Fin 2) * 384 + 1 * q.val = q.val; rw [e1]; omega

/-- The bias row, whole at every point. -/
theorem blk6_read (c : Dev nD) (t : Fin cfg0.N) (a : Fin 1) (q : Fin 128) :
    iblk m c 6 t (ix2 a q) = V m c main_v12 (ix2 a q) := by
  obtain ⟨e0, e1⟩ := idx6 t
  show V m c main_v12 (((cfg0.win 6).blk t).view.emb (ix2 a q)) = V m c main_v12 (ix2 a q)
  refine congrArg _ (funext fun ax => Fin.ext ?_)
  match ax with
  | ⟨0, _⟩ => show win0_6.index t (0 : Fin 2) * 1 + 1 * a.val = a.val; rw [e0]; omega
  | ⟨1, _⟩ => show win0_6.index t (1 : Fin 2) * 128 + 1 * q.val = q.val; rw [e1]; omega

/-! ## Result 0: the message product of the 128-wide features -/

/-- The entry `(p, q)` of the block point `t` writes is the entry `(2000 t + p, q)` of the array. -/
theorem emb7 (t : Fin cfg0.N) (p : Fin 2000) (q : Fin 128) :
    ((cfg0.win 7).blk t).view.emb (ix2 p q) = ix2 (rowOf t p) q := by
  obtain ⟨e0, e1⟩ := idx7 t
  refine funext fun ax => Fin.ext ?_
  match ax with
  | ⟨0, _⟩ => show win0_7.index t (0 : Fin 2) * 2000 + 1 * p.val = t.val * 2000 + p.val; rw [e0]; omega
  | ⟨1, _⟩ => show win0_7.index t (1 : Fin 2) * 128 + 1 * q.val = q.val; rw [e1]; omega

/-- What point `t` writes back is block `t` of the product. -/
theorem flushed7_eq (c : Dev nD) (t : Fin cfg0.N) :
    (dats m 0 c).flushed 7 t = ((cfg0.win 7).blk t).view.read (Elt Ideal)
      (dense (R := 10000) (K := 128) (C := 128) (V m c main_v1) (V m c main_v8)) := by
  show (cfg0.win 7).cut (grid0.coords t) ((dats m 0 c).after 7 t) = _
  rw [after0_7]
  unfold out0_7
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  show k0_pay3 (iblk m c 0 t) (iblk m c 2 t) (ix2 p q)
    = dense (R := 10000) (K := 128) (C := 128) (V m c main_v1) (V m c main_v8) (((cfg0.win 7).blk t).view.emb (ix2 p q))
  rw [emb7 t p q, dense_ix2]
  refine (pay3_apply (iblk m c 0 t) (iblk m c 2 t) p q).trans ?_
  exact Finset.sum_congr rfl fun a _ => by rw [blk0_read m c t p a, blk2_read m c t a q]

/-- An index of the array is in point `t`'s block iff each coordinate is in the block's range on its axis. -/
theorem mem_blk7 (t : Fin cfg0.N) (i : S10000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v13_0).slice (win0_7.rect t)).set ↔ _
  rw [View.set_slice_whole, Rect.mem_set_unit]
  exact Iff.rfl

/-- Every entry is written: row `r` by the point `r / 2000`. -/
theorem cover7 (i : S10000x128.Idx) :
    ∃ t : Fin cfg0.N, (cfg0.win 7).flush t = true ∧ i ∈ ((cfg0.win 7).blk t).view.set := by
  have hi0 : (i 0).val < 10000 := idx2_lt0 i
  have hi1 : (i 1).val < 128 := idx2_lt1 i
  have hN : cfg0.N = 5 := N_0
  obtain ⟨t, ht⟩ : ∃ t : Fin cfg0.N, t.val = (i 0).val / 2000 := ⟨⟨(i 0).val / 2000, by omega⟩, rfl⟩
  obtain ⟨e0, e1⟩ := idx7 t
  refine ⟨t, flush0_7 t, ?_⟩
  rw [mem_blk7]
  intro a
  match a with
  | ⟨0, _⟩ => show win0_7.index t (0 : Fin 2) * 2000 ≤ (i 0).val ∧ (i 0).val < win0_7.index t (0 : Fin 2) * 2000 + 2000; rw [e0, ht]; omega
  | ⟨1, _⟩ => show win0_7.index t (1 : Fin 2) * 128 ≤ (i 1).val ∧ (i 1).val < win0_7.index t (1 : Fin 2) * 128 + 128; rw [e1]; omega

/-- After the region, result 0 is the product of the 128-wide features with their message weights. -/
theorem final7 (c : Dev nD) : (dats m 0 c).arrAt 7 cfg0.N = dense (R := 10000) (K := 128) (C := 128) (V m c main_v1) (V m c main_v8) :=
  (dats m 0 c).arrAt_eq_of_cover 7 (dense (R := 10000) (K := 128) (C := 128) (V m c main_v1) (V m c main_v8))
    (fun t _ => flushed7_eq m c t) cover7

/-! ## Result 1: the message product of the 384-wide features -/

/-- The entry `(p, q)` of the block point `t` writes is the entry `(2000 t + p, q)` of the array. -/
theorem emb8 (t : Fin cfg0.N) (p : Fin 2000) (q : Fin 384) :
    ((cfg0.win 8).blk t).view.emb (ix2 p q) = ix2 (rowOf t p) q := by
  obtain ⟨e0, e1⟩ := idx8 t
  refine funext fun ax => Fin.ext ?_
  match ax with
  | ⟨0, _⟩ => show win0_8.index t (0 : Fin 2) * 2000 + 1 * p.val = t.val * 2000 + p.val; rw [e0]; omega
  | ⟨1, _⟩ => show win0_8.index t (1 : Fin 2) * 384 + 1 * q.val = q.val; rw [e1]; omega

/-- What point `t` writes back is block `t` of the product. -/
theorem flushed8_eq (c : Dev nD) (t : Fin cfg0.N) :
    (dats m 0 c).flushed 8 t = ((cfg0.win 8).blk t).view.read (Elt Ideal)
      (dense (R := 10000) (K := 384) (C := 384) (V m c main_v3) (V m c main_v9)) := by
  show (cfg0.win 8).cut (grid0.coords t) ((dats m 0 c).after 8 t) = _
  rw [after0_8]
  unfold out0_8
  rw [View.canon_unit_zero hz]
  simp only [View.ld_unit_zero (S := S2000x384) hz, View.ld_unit_zero (S := S384x384) hz]
  funext j
  obtain ⟨p, q, rfl⟩ : ∃ (p : Fin 2000) (q : Fin 384), j = ix2 p q := ⟨j 0, j 1, eq_ix2 j⟩
  show k0_pay4 (iblk m c 1 t) (iblk m c 3 t) (ix2 p q)
    = dense (R := 10000) (K := 384) (C := 384) (V m c main_v3) (V m c main_v9) (((cfg0.win 8).blk t).view.emb (ix2 p q))
  rw [emb8 t p q, dense_ix2]
  refine (pay4_apply (iblk m c 1 t) (iblk m c 3 t) p q).trans ?_
  exact Finset.sum_congr rfl fun a _ => by rw [blk1_read m c t p a, blk3_read m c t a q]

/-- An index of the array is in point `t`'s block iff each coordinate is in the block's range on its axis. -/
theorem mem_blk8 (t : Fin cfg0.N) (i : S10000x384.Idx) :
    i ∈ ((cfg0.win 8).blk t).view.set ↔ ∀ a : Fin 2, win0_8.index t a * S2000x384.size a ≤ (i a).val ∧ (i a).val < win0_8.index t a * S2000x384.size a + S2000x384.size a := by
  show i ∈ ((View.whole main_v13_1).slice (win0_8.rect t)).set ↔ _
  rw [View.set_slice_whole, Rect.mem_set_unit]
  exact Iff.rfl

/-- Every entry is written: row `r` by the point `r / 2000`. -/
theorem cover8 (i : S10000x384.Idx) :
    ∃ t : Fin cfg0.N, (cfg0.win 8).flush t = true ∧ i ∈ ((cfg0.win 8).blk t).view.set := by
  have hi0 : (i 0).val < 10000 := idx2_lt0 i
  have hi1 : (i 1).val < 384 := idx2_lt1 i
  have hN : cfg0.N = 5 := N_0
  obtain ⟨t, ht⟩ : ∃ t : Fin cfg0.N, t.val = (i 0).val / 2000 := ⟨⟨(i 0).val / 2000, by omega⟩, rfl⟩
  obtain ⟨e0, e1⟩ := idx8 t
  refine ⟨t, flush0_8 t, ?_⟩
  rw [mem_blk8]
  intro a
  match a with
  | ⟨0, _⟩ => show win0_8.index t (0 : Fin 2) * 2000 ≤ (i 0).val ∧ (i 0).val < win0_8.index t (0 : Fin 2) * 2000 + 2000; rw [e0, ht]; omega
  | ⟨1, _⟩ => show win0_8.index t (1 : Fin 2) * 384 ≤ (i 1).val ∧ (i 1).val < win0_8.index t (1 : Fin 2) * 384 + 384; rw [e1]; omega

/-- After the region, result 1 is the product of the 384-wide features with their message weights. -/
theorem final8 (c : Dev nD) : (dats m 0 c).arrAt 8 cfg0.N = dense (R := 10000) (K := 384) (C := 384) (V m c main_v3) (V m c main_v9) :=
  (dats m 0 c).arrAt_eq_of_cover 8 (dense (R := 10000) (K := 384) (C := 384) (V m c main_v3) (V m c main_v9))
    (fun t _ => flushed8_eq m c t) cover8

/-! ## Result 2: the root product of the 128-wide features, plus the bias row -/

/-- The entry `(p, q)` of the block point `t` writes is the entry `(2000 t + p, q)` of the array. -/
theorem emb9 (t : Fin cfg0.N) (p : Fin 2000) (q : Fin 128) :
    ((cfg0.win 9).blk t).view.emb (ix2 p q) = ix2 (rowOf t p) q := by
  obtain ⟨e0, e1⟩ := idx9 t
  refine funext fun ax => Fin.ext ?_
  match ax with
  | ⟨0, _⟩ => show win0_9.index t (0 : Fin 2) * 2000 + 1 * p.val = t.val * 2000 + p.val; rw [e0]; omega
  | ⟨1, _⟩ => show win0_9.index t (1 : Fin 2) * 128 + 1 * q.val = q.val; rw [e1]; omega

/-- What point `t` writes back is block `t` of the product. -/
theorem flushed9_eq (c : Dev nD) (t : Fin cfg0.N) :
    (dats m 0 c).flushed 9 t = ((cfg0.win 9).blk t).view.read (Elt Ideal)
      (denseBias (R := 10000) (K := 128) (C := 128) (V m c main_v1) (V m c main_v10) (V m c main_v12)) := by
  show (cfg0.win 9).cut (grid0.coords t) ((dats m 0 c).after 9 t) = _
  rw [after0_9]
  unfold out0_9
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay5 (iblk m c 0 t) (iblk m c 4 t) (iblk m c 6 t) (ix2 p q)
    = denseBias (R := 10000) (K := 128) (C := 128) (V m c main_v1) (V m c main_v10) (V m c main_v12) (((cfg0.win 9).blk t).view.emb (ix2 p q))
  rw [emb9 t p q, denseBias_ix2, dense_ix2]
  refine (pay5_apply (iblk m c 0 t) (iblk m c 4 t) (iblk m c 6 t) p q).trans ?_
  rw [blk6_read m c t (0 : Fin 1) q]
  exact congrArg (· + V m c main_v12 (ix2 (0 : Fin 1) q)) (Finset.sum_congr rfl fun a _ => by rw [blk0_read m c t p a, blk4_read m c t a q])

/-- An index of the array is in point `t`'s block iff each coordinate is in the block's range on its axis. -/
theorem mem_blk9 (t : Fin cfg0.N) (i : S10000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v13_2).slice (win0_9.rect t)).set ↔ _
  rw [View.set_slice_whole, Rect.mem_set_unit]
  exact Iff.rfl

/-- Every entry is written: row `r` by the point `r / 2000`. -/
theorem cover9 (i : S10000x128.Idx) :
    ∃ t : Fin cfg0.N, (cfg0.win 9).flush t = true ∧ i ∈ ((cfg0.win 9).blk t).view.set := by
  have hi0 : (i 0).val < 10000 := idx2_lt0 i
  have hi1 : (i 1).val < 128 := idx2_lt1 i
  have hN : cfg0.N = 5 := N_0
  obtain ⟨t, ht⟩ : ∃ t : Fin cfg0.N, t.val = (i 0).val / 2000 := ⟨⟨(i 0).val / 2000, by omega⟩, rfl⟩
  obtain ⟨e0, e1⟩ := idx9 t
  refine ⟨t, flush0_9 t, ?_⟩
  rw [mem_blk9]
  intro a
  match a with
  | ⟨0, _⟩ => show win0_9.index t (0 : Fin 2) * 2000 ≤ (i 0).val ∧ (i 0).val < win0_9.index t (0 : Fin 2) * 2000 + 2000; rw [e0, ht]; omega
  | ⟨1, _⟩ => show win0_9.index t (1 : Fin 2) * 128 ≤ (i 1).val ∧ (i 1).val < win0_9.index t (1 : Fin 2) * 128 + 128; rw [e1]; omega

/-- After the region, result 2 is the product of the 128-wide features with their root weights, plus the bias row. -/
theorem final9 (c : Dev nD) : (dats m 0 c).arrAt 9 cfg0.N = denseBias (R := 10000) (K := 128) (C := 128) (V m c main_v1) (V m c main_v10) (V m c main_v12) :=
  (dats m 0 c).arrAt_eq_of_cover 9 (denseBias (R := 10000) (K := 128) (C := 128) (V m c main_v1) (V m c main_v10) (V m c main_v12))
    (fun t _ => flushed9_eq m c t) cover9

/-! ## Result 3: the root product of the 384-wide features -/

/-- The entry `(p, q)` of the block point `t` writes is the entry `(2000 t + p, q)` of the array. -/
theorem emb10 (t : Fin cfg0.N) (p : Fin 2000) (q : Fin 384) :
    ((cfg0.win 10).blk t).view.emb (ix2 p q) = ix2 (rowOf t p) q := by
  obtain ⟨e0, e1⟩ := idx10 t
  refine funext fun ax => Fin.ext ?_
  match ax with
  | ⟨0, _⟩ => show win0_10.index t (0 : Fin 2) * 2000 + 1 * p.val = t.val * 2000 + p.val; rw [e0]; omega
  | ⟨1, _⟩ => show win0_10.index t (1 : Fin 2) * 384 + 1 * q.val = q.val; rw [e1]; omega

/-- What point `t` writes back is block `t` of the product. -/
theorem flushed10_eq (c : Dev nD) (t : Fin cfg0.N) :
    (dats m 0 c).flushed 10 t = ((cfg0.win 10).blk t).view.read (Elt Ideal)
      (dense (R := 10000) (K := 384) (C := 384) (V m c main_v3) (V m c main_v11)) := by
  show (cfg0.win 10).cut (grid0.coords t) ((dats m 0 c).after 10 t) = _
  rw [after0_10]
  unfold out0_10
  rw [View.canon_unit_zero hz]
  simp only [View.ld_unit_zero (S := S2000x384) hz, View.ld_unit_zero (S := S384x384) hz]
  funext j
  obtain ⟨p, q, rfl⟩ : ∃ (p : Fin 2000) (q : Fin 384), j = ix2 p q := ⟨j 0, j 1, eq_ix2 j⟩
  show k0_pay6 (iblk m c 1 t) (iblk m c 5 t) (ix2 p q)
    = dense (R := 10000) (K := 384) (C := 384) (V m c main_v3) (V m c main_v11) (((cfg0.win 10).blk t).view.emb (ix2 p q))
  rw [emb10 t p q, dense_ix2]
  refine (pay6_apply (iblk m c 1 t) (iblk m c 5 t) p q).trans ?_
  exact Finset.sum_congr rfl fun a _ => by rw [blk1_read m c t p a, blk5_read m c t a q]

/-- An index of the array is in point `t`'s block iff each coordinate is in the block's range on its axis. -/
theorem mem_blk10 (t : Fin cfg0.N) (i : S10000x384.Idx) :
    i ∈ ((cfg0.win 10).blk t).view.set ↔ ∀ a : Fin 2, win0_10.index t a * S2000x384.size a ≤ (i a).val ∧ (i a).val < win0_10.index t a * S2000x384.size a + S2000x384.size a := by
  show i ∈ ((View.whole main_v13_3).slice (win0_10.rect t)).set ↔ _
  rw [View.set_slice_whole, Rect.mem_set_unit]
  exact Iff.rfl

/-- Every entry is written: row `r` by the point `r / 2000`. -/
theorem cover10 (i : S10000x384.Idx) :
    ∃ t : Fin cfg0.N, (cfg0.win 10).flush t = true ∧ i ∈ ((cfg0.win 10).blk t).view.set := by
  have hi0 : (i 0).val < 10000 := idx2_lt0 i
  have hi1 : (i 1).val < 384 := idx2_lt1 i
  have hN : cfg0.N = 5 := N_0
  obtain ⟨t, ht⟩ : ∃ t : Fin cfg0.N, t.val = (i 0).val / 2000 := ⟨⟨(i 0).val / 2000, by omega⟩, rfl⟩
  obtain ⟨e0, e1⟩ := idx10 t
  refine ⟨t, flush0_10 t, ?_⟩
  rw [mem_blk10]
  intro a
  match a with
  | ⟨0, _⟩ => show win0_10.index t (0 : Fin 2) * 2000 ≤ (i 0).val ∧ (i 0).val < win0_10.index t (0 : Fin 2) * 2000 + 2000; rw [e0, ht]; omega
  | ⟨1, _⟩ => show win0_10.index t (1 : Fin 2) * 384 ≤ (i 1).val ∧ (i 1).val < win0_10.index t (1 : Fin 2) * 384 + 384; rw [e1]; omega

/-- After the region, result 3 is the product of the 384-wide features with their root weights. -/
theorem final10 (c : Dev nD) : (dats m 0 c).arrAt 10 cfg0.N = dense (R := 10000) (K := 384) (C := 384) (V m c main_v3) (V m c main_v11) :=
  (dats m 0 c).arrAt_eq_of_cover 10 (dense (R := 10000) (K := 384) (C := 384) (V m c main_v3) (V m c main_v11))
    (fun t _ => flushed10_eq m c t) cover10

end Cert.KernelIdeal.Region

end
-- ==== Proof.lean ====
/-
  A node transform followed by gather, scatter-add and a join, against its jnp reference: the claims.

  The kernel program cuts the node features into a scalar part [N, H] and a vector part [N, 3H], multiplies each, once
  per node, by the transposed "rel" weight and by the transposed "root" weight (the scalar root term with a bias row
  added) in one gridded region of five row blocks, then gathers the rel rows at every edge's source node, sums them
  into the edge's destination node, adds the root term and joins the two parts. The reference gathers the source
  node's features for every edge first and multiplies the gathered rows by the rel weight. In exact arithmetic a
  change of float format is the identity and a matrix product is row-local, so the two message arrays agree entry by
  entry; everything after them is the same sequence of lines applied to equal arrays. No sum is re-associated across
  the two programs, nothing is distributed or cancelled: the precondition that the inputs are finite is not used.

  The three frames are the generated frame runs (the reference's: its run with the result dropped); nothing was
  rewritten when the kernel program was idealized; the algebraic claim names both results by the reference's
  function of the arguments.
-/
import proofs.«144898_j28321014350244_2_alg».proof.Defs
import proofs.«144898_j28321014350244_2_alg».proof.Proof.Gen.Kernel
import proofs.«144898_j28321014350244_2_alg».proof.Proof.Gen.Kernel.Skeleton
import proofs.«144898_j28321014350244_2_alg».proof.Proof.Gen.Kernel.Launch
import proofs.«144898_j28321014350244_2_alg».proof.Proof.Gen.Kernel.Points
import proofs.«144898_j28321014350244_2_alg».proof.Proof.Gen.Kernel.Frame
import proofs.«144898_j28321014350244_2_alg».proof.Proof.Gen.KernelIdeal
import proofs.«144898_j28321014350244_2_alg».proof.Proof.Gen.KernelIdeal.Skeleton
import proofs.«144898_j28321014350244_2_alg».proof.Proof.Gen.KernelIdeal.Launch
import proofs.«144898_j28321014350244_2_alg».proof.Proof.Gen.KernelIdeal.Points
import proofs.«144898_j28321014350244_2_alg».proof.Proof.Gen.KernelIdeal.Frame
import proofs.«144898_j28321014350244_2_alg».proof.Proof.Gen.ReferenceIdeal
import proofs.«144898_j28321014350244_2_alg».proof.Proof.Gen.Pre_finite_inputs
import proofs.«144898_j28321014350244_2_alg».proof.Proof.Gen.ReferenceIdeal.Run
import proofs.«144898_j28321014350244_2_alg».proof.Proof.Gen.ReferenceIdeal.Read
import proofs.«144898_j28321014350244_2_alg».proof.Proof.Tail
import proofs.«144898_j28321014350244_2_alg».proof.Proof.Bridge
import proofs.«144898_j28321014350244_2_alg».proof.Proof.Region
import Idealize.ShloMosaic.Adequacy
import Idealize.ShloMosaic.Init

noncomputable section

namespace Cert.Proof

open Idealize.ShloMosaic Idealize.ShloMosaic.TcCoe Idealize.SL.Sem
open Cert.ReferenceIdeal.Read (val_main_v43)

/-- The idealized kernel program's run with its result named: every weakly fair execution terminates with the result
    buffer at the reference's function of the arguments (the frame run's post read through the lines after the
    region, the region's four arrays being the node-level products, and the bridge), the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v40)
          = val_main_v43 (F := Ideal) (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run (Cert.KernelIdeal.defs (F := Ideal)) _ _).mono (fun _ h c =>
    ⟨(((h c).2 Cert.KernelIdeal.main_v40 (Pipeline.mem_restRefs_of Cert.KernelIdeal.main_v40 (by decide) (by decide))).trans
        (Cert.KernelIdeal.Tail.tail_eq m c)).trans
        (Cert.Bridge.result_eq m c (Cert.KernelIdeal.Region.final7 m c) (Cert.KernelIdeal.Region.final8 m c)
          (Cert.KernelIdeal.Region.final9 m c) (Cert.KernelIdeal.Region.final10 m c)),
      (((h c).2 Cert.KernelIdeal.main_arg0 (Pipeline.mem_restRefs_of Cert.KernelIdeal.main_arg0 (by decide) (by decide))).trans (Cert.KernelIdeal.Gen.W_main_arg0 m (Cert.KernelIdeal.Gen.dats m) c)),
      (((h c).2 Cert.KernelIdeal.main_arg1 (Pipeline.mem_restRefs_of Cert.KernelIdeal.main_arg1 (by decide) (by decide))).trans (Cert.KernelIdeal.Gen.W_main_arg1 m (Cert.KernelIdeal.Gen.dats m) c)),
      (((h c).2 Cert.KernelIdeal.main_arg2 (Pipeline.mem_restRefs_of Cert.KernelIdeal.main_arg2 (by decide) (by decide))).trans (Cert.KernelIdeal.Gen.W_main_arg2 m (Cert.KernelIdeal.Gen.dats m) c)),
      (((h c).2 Cert.KernelIdeal.main_arg3 (Pipeline.mem_restRefs_of Cert.KernelIdeal.main_arg3 (by decide) (by decide))).trans (Cert.KernelIdeal.Gen.W_main_arg3 m (Cert.KernelIdeal.Gen.dats m) c)),
      (((h c).2 Cert.KernelIdeal.main_arg4 (Pipeline.mem_restRefs_of Cert.KernelIdeal.main_arg4 (by decide) (by decide))).trans (Cert.KernelIdeal.Gen.W_main_arg4 m (Cert.KernelIdeal.Gen.dats m) c)),
      (((h c).2 Cert.KernelIdeal.main_arg5 (Pipeline.mem_restRefs_of Cert.KernelIdeal.main_arg5 (by decide) (by decide))).trans (Cert.KernelIdeal.Gen.W_main_arg5 m (Cert.KernelIdeal.Gen.dats m) c)),
      (((h c).2 Cert.KernelIdeal.main_arg6 (Pipeline.mem_restRefs_of Cert.KernelIdeal.main_arg6 (by decide) (by decide))).trans (Cert.KernelIdeal.Gen.W_main_arg6 m (Cert.KernelIdeal.Gen.dats m) c))⟩)
    (Cert.KernelIdeal.Gen.run_main m ρ)

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- Nothing was rewritten when the kernel program was idealized. -/
theorem preserves : Cert.preserves_Kernel_KernelIdeal := trivial

/-- From memories agreeing on the arguments both programs end with the reference's function of the arguments in
    their result buffers. -/
theorem algebraic : Cert.algebraic_KernelIdeal_ReferenceIdeal := by
  intro m ρ m' ρ' _ hagree
  refine ⟨fun c => val_main_v43 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), kernel_run m ρ, ?_⟩
  refine (θ_run (Cert.ReferenceIdeal.defs (F := Ideal)) _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v43_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
